-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) (main_arg2 : IVec S8192x8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S8192x8192 : Shape := ⟨2, ![8192, 8192]⟩
abbrev S1024x128 : Shape := ⟨2, ![1024, 128]⟩
abbrev S1024x1024 : Shape := ⟨2, ![1024, 1024]⟩
abbrev S1024x1 : Shape := ⟨2, ![1024, 1]⟩
abbrev S128x1024 : Shape := ⟨2, ![128, 1024]⟩
abbrev S1024 : Shape := ⟨1, ![1024]⟩

abbrev nBuf : Space → Nat
  | .hbm => 4
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x8192, .i32⟩
  | .hbm, ⟨3, _⟩ => ⟨S8192x128, .f32⟩
  | .local _ .vmem, ⟨0, _⟩ => ⟨S1024x128, .f32⟩
  | .local _ .vmem, ⟨1, _⟩ => ⟨S1024x128, .f32⟩
  | .local _ .vmem, ⟨2, _⟩ => ⟨S8192x128, .f32⟩
  | .local _ .vmem, ⟨3, _⟩ => ⟨S1024x1024, .i32⟩
  | .local _ .vmem, ⟨4, _⟩ => ⟨S1024x1024, .i32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x1, .f32⟩
  | .local _ .vmem, ⟨9, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c7_i32 : BitVec 32 := 7#32
  let v49 : BitVec 1 := Scalar.cmpi .eq arg1 c7_i32
  let v50 : BitVec 32 := Scalar.extui v49
  let c0_i32_23 : BitVec 32 := 0#32
  let v51 : BitVec 1 := Scalar.cmpi .ne v50 c0_i32_23
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  bitsLt_bf16_f32 : FTy.bits .bf16 < FTy.bits .f32
  transposes_S1024x128_p1_0_S128x1024 : S1024x128.Transposes [1, 0] S128x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  dot_S1024x128_S128x1024_S1024x1024_1_0_0_1_n_n_wf : DotDims.WF S1024x128 S128x1024 S1024x1024 [1] [0] [0] [1] [] []
  dot_S1024x1024_S1024x128_S1024x128_1_0_0_1_n_n_wf : DotDims.WF S1024x1024 S1024x128 S1024x128 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .i32 = 32 ∨ (Rect.block (s := S8192x8192) S1024x1024.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 34
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x8192, .i32⟩
  | .hbm, ⟨3, _⟩ => ⟨S8192x8192, .f32⟩
  | .hbm, ⟨4, _⟩ => ⟨S_, .f32⟩
  | .hbm, ⟨5, _⟩ => ⟨S_, .f32⟩
  | .hbm, ⟨6, _⟩ => ⟨S8192x8192, .f32⟩
  | .hbm, ⟨7, _⟩ => ⟨S8192x8192, .i1⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .i32⟩
  | .hbm, ⟨13, _⟩ => ⟨S8192x8192, .i32⟩
  | .hbm, ⟨14, _⟩ => ⟨S8192x8192, .i1⟩
  | .hbm, ⟨15, _⟩ => ⟨S_, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S8192x1, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S8192x8192, .f32⟩
  | .hbm, ⟨32, _⟩ => ⟨S8192x8192, .f32⟩
  | .hbm, ⟨33, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_call1_v0 : Ref sig .tc := ⟨.hbm, 16, rfl⟩
abbrev main_call1_v1 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x128_S8192x128_S8192x8192_1_1_0_0_n_n_wf : DotDims.WF S8192x128 S8192x128 S8192x8192 [1] [1] [0] [0] [] []
  dot_S8192x8192_S8192x128_S8192x128_1_0_0_1_n_n_wf : DotDims.WF S8192x8192 S8192x128 S8192x128 [1] [0] [0] [1] [] []

variable [Facts₀]

def dot_S8192x128_S8192x128_S8192x8192_1_1_0_0_n_n : DotDims S8192x128 S8192x128 S8192x8192 where
  lhsContracting := [1]
  rhsContracting := [1]
  lhsNonContracting := [0]
  rhsNonContracting := [0]
  lhsBatch := []
  rhsBatch := []
  wf := dot_S8192x128_S8192x128_S8192x8192_1_1_0_0_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.KPieces.lean ====
import proofs.«116552_j81827716923995_2_alg».proof.Proof.Gen.KernelIdeal.Value
import Idealize.ShloMosaic.Lib.Pipeline.Value
import Idealize.ShloMosaic.Lib.Tactic

noncomputable section

namespace Cert.KernelIdeal.KV

open Cert.KernelIdeal Cert.KernelIdeal.Gen Idealize.ShloMosaic Idealize.ShloMosaic.TcCoe Idealize.SL.Sem
open Idealize.ShloMosaic.Pipeline (Dat)

variable {F : FTy → Type} [FloatOps F]

/-- The tile of the keys the body reads at a grid point: the 1024 rows from row 1024·(i 1) of the resident keys. -/
abbrev ktile (i : grid0.Coords) (x1 : Vec F S8192x128 .f32) : Vec F S1024x128 .f32 :=
  View.ld x1 (Rect.unit (s := S8192x128) (k0_off1 i) S1024x128.size (k0_off1_inb i))

/-- The running maximum after a tile: the old one against the tile's row maxima. -/
abbrev mStep (kt x0 : Vec F S1024x128 .f32) (x2 : Vec F S1024x1024 .i32) (xs1 : Vec F S1024x1 .f32) : Vec F S1024x1 .f32 :=
  k0_pay2 (k0_pay9 kt x0 x2 xs1)

/-- The running denominator after a tile. -/
abbrev lStep (kt x0 : Vec F S1024x128 .f32) (x2 : Vec F S1024x1024 .i32) (xs1 xs2 : Vec F S1024x1 .f32) : Vec F S1024x1 .f32 :=
  k0_pay12 kt x0 x2 xs1 xs2

/-- The running numerator after a tile. -/
abbrev aStep (kt x0 : Vec F S1024x128 .f32) (x2 : Vec F S1024x1024 .i32) (xs0 : Vec F S1024x128 .f32) (xs1 : Vec F S1024x1 .f32) : Vec F S1024x128 .f32 :=
  k0_pay1 (k0_pay7 kt) (k0_pay10 kt x0 x2 xs1) (k0_pay11 kt x0 x2 xs1) xs0

theorem hz2 : (![0, 0] : Fin 2 → Nat) = fun _ => 0 := funext fun a => by fin_cases a <;> rfl

theorem sout_B_0 (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x1024 .i32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x128 .f32) (x1 : Vec F S8192x128 .f32) (x2 : Vec F S1024x1024 .i32) (xs0 : Vec F S1024x128 .f32) (xs1 : Vec F S1024x1 .f32) (xs2 : Vec F S1024x1 .f32) :
    sout0_B_0 c i arg2 harg2 arg3 harg3 arg4 harg4 arg5 harg5 arg6 harg6 arg7 harg7 arg8 harg8 hc0 hc1 x0 x1 x2 xs0 xs1 xs2 = aStep (ktile i x1) x0 x2 xs0 xs1 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  first | rw [View.canon_unit_zero (S := S1024x128) hz2] | rw [View.canon_cons_unit_zero (S := S1024x128) hz2]
  simp only [View.readAt_eq_ld, harg2.read_unread, harg3.read_unread, harg4.read_unread, harg5.read_unread, harg6.read_unread, harg7.read_unread, harg8.read_unread, View.ld_unit_zero (S := S1024x128) hz2, View.ld_unit_zero (S := S1024x1024) hz2, View.ld_unit_zero (S := S1024x1) hz2, View.readCov_unit_zero (S := S1024x128) _ hz2, View.readCov_unit_zero (S := S1024x1) _ hz2]
  rfl

theorem sout_B_1 (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x1024 .i32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x128 .f32) (x1 : Vec F S8192x128 .f32) (x2 : Vec F S1024x1024 .i32) (xs0 : Vec F S1024x128 .f32) (xs1 : Vec F S1024x1 .f32) (xs2 : Vec F S1024x1 .f32) :
    sout0_B_1 c i arg2 harg2 arg3 harg3 arg4 harg4 arg5 harg5 arg6 harg6 arg7 harg7 arg8 harg8 hc0 hc1 x0 x1 x2 xs0 xs1 xs2 = mStep (ktile i x1) x0 x2 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  first | rw [View.canon_unit_zero (S := S1024x1) hz2] | rw [View.canon_cons_unit_zero (S := S1024x1) hz2]
  simp only [View.readAt_eq_ld, harg2.read_unread, harg3.read_unread, harg4.read_unread, harg5.read_unread, harg6.read_unread, harg7.read_unread, harg8.read_unread, View.ld_unit_zero (S := S1024x128) hz2, View.ld_unit_zero (S := S1024x1024) hz2, View.ld_unit_zero (S := S1024x1) hz2, View.readCov_unit_zero (S := S1024x128) _ hz2, View.readCov_unit_zero (S := S1024x1) _ hz2]
  rfl

theorem sout_B_2 (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x1024 .i32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : ¬cond0_1 i)
    (x0 : Vec F S1024x128 .f32) (x1 : Vec F S8192x128 .f32) (x2 : Vec F S1024x1024 .i32) (xs0 : Vec F S1024x128 .f32) (xs1 : Vec F S1024x1 .f32) (xs2 : Vec F S1024x1 .f32) :
    sout0_B_2 c i arg2 harg2 arg3 harg3 arg4 harg4 arg5 harg5 arg6 harg6 arg7 harg7 arg8 harg8 hc0 hc1 x0 x1 x2 xs0 xs1 xs2 = lStep (ktile i x1) x0 x2 xs1 xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  first | rw [View.canon_unit_zero (S := S1024x1) hz2] | rw [View.canon_cons_unit_zero (S := S1024x1) hz2]
  simp only [View.readAt_eq_ld, harg2.read_unread, harg3.read_unread, harg4.read_unread, harg5.read_unread, harg6.read_unread, harg7.read_unread, harg8.read_unread, View.ld_unit_zero (S := S1024x128) hz2, View.ld_unit_zero (S := S1024x1024) hz2, View.ld_unit_zero (S := S1024x1) hz2, View.readCov_unit_zero (S := S1024x128) _ hz2, View.readCov_unit_zero (S := S1024x1) _ hz2]
  rfl

theorem sout_C_0 (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x1024 .i32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .f32) (x1 : Vec F S8192x128 .f32) (x2 : Vec F S1024x1024 .i32) (xs0 : Vec F S1024x128 .f32) (xs1 : Vec F S1024x1 .f32) (xs2 : Vec F S1024x1 .f32) :
    sout0_C_0 c i arg2 harg2 arg3 harg3 arg4 harg4 arg5 harg5 arg6 harg6 arg7 harg7 arg8 harg8 hc0 hc1 x0 x1 x2 xs0 xs1 xs2 = aStep (ktile i x1) x0 x2 xs0 xs1 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  first | rw [View.canon_unit_zero (S := S1024x128) hz2] | rw [View.canon_cons_unit_zero (S := S1024x128) hz2]
  simp only [View.readAt_eq_ld, harg2.read_unread, harg3.read_unread, harg4.read_unread, harg5.read_unread, harg6.read_unread, harg7.read_unread, harg8.read_unread, View.ld_unit_zero (S := S1024x128) hz2, View.ld_unit_zero (S := S1024x1024) hz2, View.ld_unit_zero (S := S1024x1) hz2, View.readCov_unit_zero (S := S1024x128) _ hz2, View.readCov_unit_zero (S := S1024x1) _ hz2]
  rfl

theorem sout_C_1 (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x1024 .i32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .f32) (x1 : Vec F S8192x128 .f32) (x2 : Vec F S1024x1024 .i32) (xs0 : Vec F S1024x128 .f32) (xs1 : Vec F S1024x1 .f32) (xs2 : Vec F S1024x1 .f32) :
    sout0_C_1 c i arg2 harg2 arg3 harg3 arg4 harg4 arg5 harg5 arg6 harg6 arg7 harg7 arg8 harg8 hc0 hc1 x0 x1 x2 xs0 xs1 xs2 = mStep (ktile i x1) x0 x2 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  first | rw [View.canon_unit_zero (S := S1024x1) hz2] | rw [View.canon_cons_unit_zero (S := S1024x1) hz2]
  simp only [View.readAt_eq_ld, harg2.read_unread, harg3.read_unread, harg4.read_unread, harg5.read_unread, harg6.read_unread, harg7.read_unread, harg8.read_unread, View.ld_unit_zero (S := S1024x128) hz2, View.ld_unit_zero (S := S1024x1024) hz2, View.ld_unit_zero (S := S1024x1) hz2, View.readCov_unit_zero (S := S1024x128) _ hz2, View.readCov_unit_zero (S := S1024x1) _ hz2]
  rfl

theorem sout_C_2 (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x1024 .i32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .f32) (x1 : Vec F S8192x128 .f32) (x2 : Vec F S1024x1024 .i32) (xs0 : Vec F S1024x128 .f32) (xs1 : Vec F S1024x1 .f32) (xs2 : Vec F S1024x1 .f32) :
    sout0_C_2 c i arg2 harg2 arg3 harg3 arg4 harg4 arg5 harg5 arg6 harg6 arg7 harg7 arg8 harg8 hc0 hc1 x0 x1 x2 xs0 xs1 xs2 = lStep (ktile i x1) x0 x2 xs1 xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  first | rw [View.canon_unit_zero (S := S1024x1) hz2] | rw [View.canon_cons_unit_zero (S := S1024x1) hz2]
  simp only [View.readAt_eq_ld, harg2.read_unread, harg3.read_unread, harg4.read_unread, harg5.read_unread, harg6.read_unread, harg7.read_unread, harg8.read_unread, View.ld_unit_zero (S := S1024x128) hz2, View.ld_unit_zero (S := S1024x1024) hz2, View.ld_unit_zero (S := S1024x1) hz2, View.readCov_unit_zero (S := S1024x128) _ hz2, View.readCov_unit_zero (S := S1024x1) _ hz2]
  rfl

theorem out_C_3 (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x1024 .i32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (hc0 : ¬cond0_0 i) (hc1 : cond0_1 i)
    (x0 : Vec F S1024x128 .f32) (x1 : Vec F S8192x128 .f32) (x2 : Vec F S1024x1024 .i32) (xs0 : Vec F S1024x128 .f32) (xs1 : Vec F S1024x1 .f32) (xs2 : Vec F S1024x1 .f32) :
    out0_C_3 c i arg2 harg2 arg3 harg3 arg4 harg4 arg5 harg5 arg6 harg6 arg7 harg7 arg8 harg8 hc0 hc1 x0 x1 x2 xs0 xs1 xs2 = k0_pay3 (aStep (ktile i x1) x0 x2 xs0 xs1) (lStep (ktile i x1) x0 x2 xs1 xs2) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  first | rw [View.canon_unit_zero (S := S1024x128) hz2] | rw [View.canon_cons_unit_zero (S := S1024x128) hz2]
  simp only [View.readAt_eq_ld, harg2.read_unread, harg3.read_unread, harg4.read_unread, harg5.read_unread, harg6.read_unread, harg7.read_unread, harg8.read_unread, View.ld_unit_zero (S := S1024x128) hz2, View.ld_unit_zero (S := S1024x1024) hz2, View.ld_unit_zero (S := S1024x1) hz2, View.readCov_unit_zero (S := S1024x128) _ hz2, View.readCov_unit_zero (S := S1024x1) _ hz2]
  rfl

theorem sout_A_0 (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x1024 .i32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x128 .f32) (x1 : Vec F S8192x128 .f32) (x2 : Vec F S1024x1024 .i32) :
    sout0_A_0 c i arg2 harg2 arg3 harg3 arg4 harg4 arg5 harg5 arg6 harg6 arg7 harg7 arg8 harg8 hc0 hc1 x0 x1 x2 = aStep (ktile i x1) x0 x2 k0_pay4 k0_pay5 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  first | rw [View.canon_unit_zero (S := S1024x128) hz2] | rw [View.canon_cons_unit_zero (S := S1024x128) hz2]
  simp only [View.readAt_eq_ld, harg2.read_unread, harg3.read_unread, harg4.read_unread, harg5.read_unread, harg6.read_unread, harg7.read_unread, harg8.read_unread, View.ld_unit_zero (S := S1024x128) hz2, View.ld_unit_zero (S := S1024x1024) hz2, View.ld_unit_zero (S := S1024x1) hz2, View.readCov_unit_zero (S := S1024x128) _ hz2, View.readCov_unit_zero (S := S1024x1) _ hz2]
  rfl

theorem sout_A_1 (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x1024 .i32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x128 .f32) (x1 : Vec F S8192x128 .f32) (x2 : Vec F S1024x1024 .i32) :
    sout0_A_1 c i arg2 harg2 arg3 harg3 arg4 harg4 arg5 harg5 arg6 harg6 arg7 harg7 arg8 harg8 hc0 hc1 x0 x1 x2 = mStep (ktile i x1) x0 x2 k0_pay5 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  first | rw [View.canon_unit_zero (S := S1024x1) hz2] | rw [View.canon_cons_unit_zero (S := S1024x1) hz2]
  simp only [View.readAt_eq_ld, harg2.read_unread, harg3.read_unread, harg4.read_unread, harg5.read_unread, harg6.read_unread, harg7.read_unread, harg8.read_unread, View.ld_unit_zero (S := S1024x128) hz2, View.ld_unit_zero (S := S1024x1024) hz2, View.ld_unit_zero (S := S1024x1) hz2, View.readCov_unit_zero (S := S1024x128) _ hz2, View.readCov_unit_zero (S := S1024x1) _ hz2]
  rfl

theorem sout_A_2 (c : Dev nD) (i : grid0.Coords) (arg2 : Memref sig .tc .vmem S1024x128 .f32) (harg2 : arg2.IsWhole) (arg3 : Memref sig .tc .vmem S8192x128 .f32) (harg3 : arg3.IsWhole) (arg4 : Memref sig .tc .vmem S1024x1024 .i32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (hc0 : cond0_0 i) (hc1 : ¬cond0_1 i)
    (x0 : Vec F S1024x128 .f32) (x1 : Vec F S8192x128 .f32) (x2 : Vec F S1024x1024 .i32) :
    sout0_A_2 c i arg2 harg2 arg3 harg3 arg4 harg4 arg5 harg5 arg6 harg6 arg7 harg7 arg8 harg8 hc0 hc1 x0 x1 x2 = lStep (ktile i x1) x0 x2 k0_pay5 k0_pay6 := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  first | rw [View.canon_unit_zero (S := S1024x1) hz2] | rw [View.canon_cons_unit_zero (S := S1024x1) hz2]
  simp only [View.readAt_eq_ld, harg2.read_unread, harg3.read_unread, harg4.read_unread, harg5.read_unread, harg6.read_unread, harg7.read_unread, harg8.read_unread, View.ld_unit_zero (S := S1024x128) hz2, View.ld_unit_zero (S := S1024x1024) hz2, View.ld_unit_zero (S := S1024x1) hz2, View.readCov_unit_zero (S := S1024x128) _ hz2, View.readCov_unit_zero (S := S1024x1) _ hz2]
  rfl

end Cert.KernelIdeal.KV
end
-- ==== Proof.Spec.lean ====
/-
  Masked attention with a leaky-relu on the scores, as one function of the three argument arrays.

  For queries `q` and keys `k` (8192 rows of 128 entries each) and an integer adjacency table `msk`, the score of
  query `n` against key `c` is the inner product of row `n` of `q` with row `c` of `k`; the logit is the leaky
  relu of the score where `msk n c > 0` and a large negative fill elsewhere; row `n` of the result is the average of
  the rows of `k` under the softmax weights of row `n` of the logits.  A softmax-weighted average does not depend
  on the number subtracted from the logits before exponentiating, so the result is stated with nothing subtracted
  (`wsum`), over the real parts of the entries: under the precondition every entry is a real number.
-/
import Idealize.ShloMosaic.PureOps.Ideal
import Idealize.ShloMosaic.Lib.ValueIdx

noncomputable section

namespace Cert.Attn

open Idealize.ShloMosaic Idealize.ShloMosaic.ValueIdx

/-- Queries, keys and the result: 8192 rows of 128 entries. -/
abbrev SQ : Shape := ⟨2, ![8192, 128]⟩
/-- The adjacency table and the logits: 8192 by 8192. -/
abbrev SM : Shape := ⟨2, ![8192, 8192]⟩

/-- The leaky relu's slope, the binary32 number nearest to 0.2. -/
def slope : EReal := Ideal.ofBits .f32 0x3E4CCCCD#32
/-- The fill of a masked-out logit, the binary32 number nearest to -9e15. -/
def fill : EReal := Ideal.ofBits .f32 0xD9FFCB9E#32

/-- The slope is the real number 13421773 / 2^26, which lies between 0 and 1. -/
theorem slope_eq : slope = ((13421773 / 67108864 : ℝ) : EReal) := by
  unfold slope
  simp [Ideal.ofBits, Ideal.ieee, -EReal.coe_mul]; norm_num

/-- The fill is a real number. -/
theorem fill_eq : fill = ((-(16763806 * 536870912) : ℝ) : EReal) := by
  unfold fill
  simp [Ideal.ofBits, Ideal.ieee, -EReal.coe_mul]; norm_num

/-- The pattern of negative infinity denotes the bottom of the extended reals. -/
theorem ofBits_neg_inf : Ideal.ofBits .f32 0xFF800000#32 = (⊥ : EReal) := by
  simp [Ideal.ofBits, Ideal.ieee]

/-- The zero pattern denotes zero. -/
theorem ofBits_zero : Ideal.ofBits .f32 0x00000000#32 = (0 : EReal) := by
  simp [Ideal.ofBits, Ideal.ieee]

/-- The score of query `n` against key `c`: the inner product of their rows. -/
def score (q k : SQ.Idx → EReal) (n c : Fin 8192) : EReal := ∑ d : Fin 128, q (ix2 n d) * k (ix2 c d)

/-- The leaky relu of a score, as the larger of the score and its multiple by the slope. -/
def leaky (s : EReal) : EReal := max s (slope * s)

/-- The logit of query `n` against key `c`: the leaky relu of the score where the table's entry is positive,
    the fill elsewhere. -/
def logit (q k : SQ.Idx → EReal) (msk : SM.Idx → BitVec 32) (n c : Fin 8192) : EReal :=
  Scalar.select (IntOp.cmpi .sgt (msk (ix2 n c)) 0#32) (leaky (score q k n c)) fill

/-- The average of `v` under the softmax weights of `x`, over any finite index type. -/
def wsum {ι : Type} [Fintype ι] (x v : ι → ℝ) : ℝ := (∑ c, Real.exp (x c) * v c) / ∑ c, Real.exp (x c)

/-- The result: entry `(n, d)` is the average of column `d` of the keys under the softmax weights of row `n` of
    the logits. -/
def out (q k : SQ.Idx → EReal) (msk : SM.Idx → BitVec 32) : SQ.Idx → EReal := fun i =>
  ((wsum (fun c : Fin 8192 => (logit q k msk (i 0) c).toReal) (fun c : Fin 8192 => (k (ix2 c (i 1))).toReal) : ℝ) : EReal)

/-- An array all of whose entries are real numbers. -/
def IsReal {s : Shape} (a : s.Idx → EReal) : Prop := ∀ i, ∃ r : ℝ, a i = (r : EReal)

end Cert.Attn

end
-- ==== Proof.LibKeepdims.lean ====
/-
  Two layout reads that every row reduction with kept dimensions meets, at any sizes:
  a vector of length a viewed as an a × 1 column, and an a × 1 column repeated along rows of length b.
  Both only rename entries: the column's entry (p, 0) is the vector's entry p, and the broadcast's entry (p, k) is
  the column's entry (p, 0), whatever k.
-/
import Idealize.ShloMosaic.Lib.Pipeline.Value
import Idealize.ShloMosaic.Lib.ValueIdx

noncomputable section

namespace Cert.Lib.Keepdims

open Idealize.ShloMosaic Idealize.ShloMosaic.ValueIdx

variable {α : Type}

/-- A length-`a` vector reshaped to an `a × 1` column: entry (p, 0) of the column is entry p of the vector
    (both sit at row-major position p). -/
theorem shapeCast_column_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- An `a × 1` column broadcast along rows of length `b`: entry (p, k) of the result is entry (p, 0) of the
    column (when a = 1 the only row is row 0, so the rule "a unit axis reads 0" and the rule "a kept axis reads
    its own coordinate" agree). -/
theorem broadcastTo_column_apply {a b : Nat} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun c => ?_
  match c with
  | ⟨0, _⟩ =>
    show p.val = if a = 1 then 0 else p.val
    split
    · have := p.isLt; omega
    · rfl
  | ⟨1, _⟩ => show 0 = if (1 : Nat) = 1 then 0 else k.val; rw [if_pos rfl]

end Cert.Lib.Keepdims

end
-- ==== Proof.KPay.lean ====
import proofs.«116552_j81827716923995_2_alg».proof.Proof.Gen.KernelIdeal.Skeleton
import proofs.«116552_j81827716923995_2_alg».proof.Proof.Spec
import proofs.«116552_j81827716923995_2_alg».proof.Proof.LibKeepdims
import Idealize.ShloMosaic.PureOps.Ideal.Laws
import Idealize.ShloMosaic.Lib.ValueIdx
import Idealize.ShloMosaic.Lib.ValueLayout
import Idealize.ShloMosaic.Lib.Pipeline.Value

noncomputable section

/-
  The body's arithmetic read entry by entry at the extended reals.

  At a grid point the body holds a block `q` of 1024 query rows, a tile `kt` of 1024 key rows and the matching
  1024 × 1024 block `mk` of the adjacency table.  Entry (r, b) of the tile's logits is the masked leaky relu of the inner
  product of query row r with key row b (`tLogit`).  The new reference point of row r is the larger of the old one and the
  largest logit of the row; the new denominator is the old one times exp (old point − new point) plus the sum over the tile
  of exp (logit − new point); the new numerator at column d is the old one times the same factor plus the sum over the
  tile of exp (logit − new point) times entry (b, d) of the key tile.
-/
namespace Cert.KernelIdeal.KPay

open Cert.KernelIdeal Cert.KernelIdeal.Gen Idealize.ShloMosaic Idealize.ShloMosaic.ValueIdx Cert.Lib.Keepdims Cert.Attn

/-- The inner product of query row `r` of the block with key row `b` of the tile. -/
def tScore (kt q : Vec Ideal S1024x128 .f32) (r b : Fin 1024) : EReal := ∑ d : Fin 128, q (ix2 r d) * kt (ix2 b d)

/-- The tile's logit at (r, b): the leaky relu of the score where the table's entry is positive, the fill elsewhere. -/
def tLogit (kt q : Vec Ideal S1024x128 .f32) (mk : Vec Ideal S1024x1024 .i32) (r b : Fin 1024) : EReal :=
  Scalar.select (IntOp.cmpi .sgt (mk (ix2 r b)) 0#32) (leaky (tScore kt q r b)) fill

/-! ### The two contractions' operand indices -/

theorem D1_lhs (r b : Fin 1024) (d : Fin 128) :
    dot_S1024x128_S128x1024_S1024x1024_1_0_0_1_n_n.lhsIdx (ix2 r b) ((contrEquiv1 dot_S1024x128_S128x1024_S1024x1024_1_0_0_1_n_n 128 rfl rfl).symm d) = ix2 r d := by
  funext a
  apply Fin.ext
  match a with
  | ⟨0, _⟩ => simp [DotDims.lhsIdx, dot_S1024x128_S128x1024_S1024x1024_1_0_0_1_n_n]; rfl
  | ⟨1, _⟩ => exact (dot_S1024x128_S128x1024_S1024x1024_1_0_0_1_n_n.lhsIdx_val_of_single rfl _ _).trans (contrEquiv1_symm_val _ 128 rfl rfl d)

theorem D1_rhs (r b : Fin 1024) (d : Fin 128) :
    dot_S1024x128_S128x1024_S1024x1024_1_0_0_1_n_n.rhsIdx (ix2 r b) ((contrEquiv1 dot_S1024x128_S128x1024_S1024x1024_1_0_0_1_n_n 128 rfl rfl).symm d) = ix2 d b := by
  funext a
  apply Fin.ext
  match a with
  | ⟨0, _⟩ => exact (dot_S1024x128_S128x1024_S1024x1024_1_0_0_1_n_n.rhsIdx_val_of_single rfl _ _).trans (contrEquiv1_symm_val _ 128 rfl rfl d)
  | ⟨1, _⟩ => simp [DotDims.rhsIdx, dot_S1024x128_S128x1024_S1024x1024_1_0_0_1_n_n]; rfl

theorem D2_lhs (r : Fin 1024) (d : Fin 128) (b : Fin 1024) :
    dot_S1024x1024_S1024x128_S1024x128_1_0_0_1_n_n.lhsIdx (ix2 r d) ((contrEquiv1 dot_S1024x1024_S1024x128_S1024x128_1_0_0_1_n_n 1024 rfl rfl).symm b) = ix2 r b := by
  funext a
  apply Fin.ext
  match a with
  | ⟨0, _⟩ => simp [DotDims.lhsIdx, dot_S1024x1024_S1024x128_S1024x128_1_0_0_1_n_n]; rfl
  | ⟨1, _⟩ => exact (dot_S1024x1024_S1024x128_S1024x128_1_0_0_1_n_n.lhsIdx_val_of_single rfl _ _).trans (contrEquiv1_symm_val _ 1024 rfl rfl b)

theorem D2_rhs (r : Fin 1024) (d : Fin 128) (b : Fin 1024) :
    dot_S1024x1024_S1024x128_S1024x128_1_0_0_1_n_n.rhsIdx (ix2 r d) ((contrEquiv1 dot_S1024x1024_S1024x128_S1024x128_1_0_0_1_n_n 1024 rfl rfl).symm b) = ix2 b d := by
  funext a
  apply Fin.ext
  match a with
  | ⟨0, _⟩ => exact (dot_S1024x1024_S1024x128_S1024x128_1_0_0_1_n_n.rhsIdx_val_of_single rfl _ _).trans (contrEquiv1_symm_val _ 1024 rfl rfl b)
  | ⟨1, _⟩ => simp [DotDims.rhsIdx, dot_S1024x1024_S1024x128_S1024x128_1_0_0_1_n_n]; rfl

/-! ### Row reductions of a 1024 × 1024 block -/

/-- The source index of row `r`, column `b`, as the reduction over axis 1 names it. -/
theorem lift_row (r b : Fin 1024) : reduces_S1024x1024_S1024.lift (ix1 r) b = ix2 r b := by
  funext a
  apply Fin.ext
  match a with
  | ⟨0, _⟩ => rfl
  | ⟨1, _⟩ => rfl

/-- A row maximum from negative infinity is the fold of `max` from the bottom over the row's entries. -/
theorem rowmax_apply (src : FVec Ideal S1024x1024 .f32) (hφ : FKind.Formats .f32)
    (hacc : (0xFF800000#32 : BitVec 32) = FKind.maximumf.neutral .f32 hφ) (r : Fin 1024) :
    multiReduction .maximumf [1] S1024 src 0xFF800000#32 reduces_S1024x1024_S1024 hφ hacc (ix1 r)
      = (Finset.univ : Finset (Fin 1024)).fold max (⊥ : EReal) fun b => src (ix2 r b) := by
  refine (Ideal.multiReduction_maximumf_single src 0xFF800000#32 reduces_S1024x1024_S1024 hφ hacc (ix1 r)).trans ?_
  show (Finset.univ : Finset (Fin 1024)).fold max (Ideal.ofBits .f32 0xFF800000#32) _ = _
  rw [ofBits_neg_inf]
  exact congrArg (fun f => (Finset.univ : Finset (Fin 1024)).fold max (⊥ : EReal) f) (funext fun b => congrArg src (lift_row r b))

/-- A row sum is the sum of the row's entries. -/
theorem rowsum_apply (src : FVec Ideal S1024x1024 .f32) (hφ : FKind.Formats .f32)
    (hacc : (0x00000000#32 : BitVec 32) = FKind.add.neutral .f32 hφ) (r : Fin 1024) :
    multiReduction .add [1] S1024 src 0x00000000#32 reduces_S1024x1024_S1024 hφ hacc (ix1 r)
      = ∑ b : Fin 1024, src (ix2 r b) := by
  refine (Ideal.multiReduction_add_single src 0x00000000#32 reduces_S1024x1024_S1024 hφ hacc (ix1 r)).trans ?_
  show ∑ b : Fin 1024, src (reduces_S1024x1024_S1024.lift (ix1 r) b) = _
  exact Finset.sum_congr rfl fun b _ => congrArg src (lift_row r b)

/-! ### The payloads at an entry -/

/-- The score block: query rows against the transposed key tile. -/
theorem score_apply (v6 v8 : Vec Ideal S1024x128 .f32) (r b : Fin 1024) :
    matmul dot_S1024x128_S128x1024_S1024x1024_1_0_0_1_n_n none (truncf .bf16 v8 bitsLt_bf16_f32)
      (transpose S128x1024 [1, 0] (k0_pay7 v6) transposes_S1024x128_p1_0_S128x1024)
      (constant S1024x1024 .f32 0x00000000#32) (ix2 r b) = tScore v6 v8 r b := by
  refine (Ideal.matmul_constant_zero_apply dot_S1024x128_S128x1024_S1024x1024_1_0_0_1_n_n none _ _ (ix2 r b)).trans ?_
  refine (Equiv.sum_comp (contrEquiv1 dot_S1024x128_S128x1024_S1024x1024_1_0_0_1_n_n 128 rfl rfl).symm _).symm.trans ?_
  refine Finset.sum_congr rfl fun d _ => ?_
  rw [D1_lhs, D1_rhs, transpose_ix2_apply]
  rfl

theorem pay8_apply (v6 v8 : Vec Ideal S1024x128 .f32) (v15 : Vec Ideal S1024x1024 .i32) (r b : Fin 1024) :
    k0_pay8 (F := Ideal) v6 v8 v15 (ix2 r b) = tLogit v6 v8 v15 r b := by
  unfold k0_pay8 tLogit leaky
  try dsimp only
  show Scalar.select (IntOp.cmpi .sgt (v15 (ix2 r b)) 0#32)
      (max (matmul dot_S1024x128_S128x1024_S1024x1024_1_0_0_1_n_n none (truncf .bf16 v8 bitsLt_bf16_f32)
          (transpose S128x1024 [1, 0] (k0_pay7 v6) transposes_S1024x128_p1_0_S128x1024)
          (constant S1024x1024 .f32 0x00000000#32) (ix2 r b))
        (slope * matmul dot_S1024x128_S128x1024_S1024x1024_1_0_0_1_n_n none (truncf .bf16 v8 bitsLt_bf16_f32)
          (transpose S128x1024 [1, 0] (k0_pay7 v6) transposes_S1024x128_p1_0_S128x1024)
          (constant S1024x1024 .f32 0x00000000#32) (ix2 r b))) fill = _
  rw [score_apply]

theorem pay9_apply (v6 v8 : Vec Ideal S1024x128 .f32) (v15 : Vec Ideal S1024x1024 .i32) (v20 : Vec Ideal S1024x1 .f32)
    (r : Fin 1024) :
    k0_pay9 (F := Ideal) v6 v8 v15 v20 (ix2 r (0 : Fin 1))
      = max (v20 (ix2 r (0 : Fin 1))) ((Finset.univ : Finset (Fin 1024)).fold max (⊥ : EReal) fun b => tLogit v6 v8 v15 r b) := by
  unfold k0_pay9
  try dsimp only
  refine (maximumf_apply _ _ _).trans ?_
  refine congrArg (max _) ?_
  refine (shapeCast_column_apply _ _ r).trans ?_
  refine (rowmax_apply _ _ _ r).trans ?_
  exact congrArg (fun f => (Finset.univ : Finset (Fin 1024)).fold max (⊥ : EReal) f) (funext fun b => pay8_apply v6 v8 v15 r b)

theorem pay10_apply (v6 v8 : Vec Ideal S1024x128 .f32) (v15 : Vec Ideal S1024x1024 .i32) (v20 : Vec Ideal S1024x1 .f32)
    (r b : Fin 1024) :
    k0_pay10 (F := Ideal) v6 v8 v15 v20 (ix2 r b)
      = Ideal.exp (tLogit v6 v8 v15 r b - k0_pay9 (F := Ideal) v6 v8 v15 v20 (ix2 r (0 : Fin 1))) := by
  unfold k0_pay10
  try dsimp only
  show Ideal.exp (k0_pay8 (F := Ideal) v6 v8 v15 (ix2 r b)
    - broadcastTo S1024x1024 (k0_pay9 (F := Ideal) v6 v8 v15 v20) broadcasts_S1024x1_S1024x1024 (ix2 r b)) = _
  rw [broadcastTo_column_apply, pay8_apply]

theorem pay11_apply (v6 v8 : Vec Ideal S1024x128 .f32) (v15 : Vec Ideal S1024x1024 .i32) (v20 : Vec Ideal S1024x1 .f32)
    (r : Fin 1024) :
    k0_pay11 (F := Ideal) v6 v8 v15 v20 (ix2 r (0 : Fin 1))
      = Ideal.exp (v20 (ix2 r (0 : Fin 1)) - k0_pay9 (F := Ideal) v6 v8 v15 v20 (ix2 r (0 : Fin 1))) := rfl

theorem pay12_apply (v6 v8 : Vec Ideal S1024x128 .f32) (v15 : Vec Ideal S1024x1024 .i32) (v20 v29 : Vec Ideal S1024x1 .f32)
    (r : Fin 1024) :
    k0_pay12 (F := Ideal) v6 v8 v15 v20 v29 (ix2 r (0 : Fin 1))
      = k0_pay11 (F := Ideal) v6 v8 v15 v20 (ix2 r (0 : Fin 1)) * v29 (ix2 r (0 : Fin 1))
        + ∑ b : Fin 1024, k0_pay10 (F := Ideal) v6 v8 v15 v20 (ix2 r b) := by
  unfold k0_pay12
  try dsimp only
  rw [shapeCast_self]
  refine (addf_apply _ _ _).trans ?_
  refine congrArg₂ (· + ·) (mulf_apply _ _ _) ?_
  refine (shapeCast_column_apply _ _ r).trans ?_
  exact rowsum_apply _ _ _ r

theorem pay1_apply (v7 : FVec Ideal S1024x128 .bf16) (v26 : FVec Ideal S1024x1024 .f32) (v28 : FVec Ideal S1024x1 .f32)
    (v39 : Vec Ideal S1024x128 .f32) (r : Fin 1024) (d : Fin 128) :
    k0_pay1 (F := Ideal) v7 v26 v28 v39 (ix2 r d)
      = v28 (ix2 r (0 : Fin 1)) * v39 (ix2 r d) + ∑ b : Fin 1024, v26 (ix2 r b) * v7 (ix2 b d) := by
  unfold k0_pay1
  try dsimp only
  rw [shapeCast_self]
  refine (addf_apply _ _ _).trans ?_
  refine congrArg₂ (· + ·) ?_ ?_
  · refine (mulf_apply _ _ _).trans ?_
    rw [broadcastTo_column_apply]
  · refine (Ideal.matmul_constant_zero_apply dot_S1024x1024_S1024x128_S1024x128_1_0_0_1_n_n none _ _ (ix2 r d)).trans ?_
    refine (Equiv.sum_comp (contrEquiv1 dot_S1024x1024_S1024x128_S1024x128_1_0_0_1_n_n 1024 rfl rfl).symm _).symm.trans ?_
    refine Finset.sum_congr rfl fun b _ => ?_
    rw [D2_lhs, D2_rhs]
    rfl

theorem pay3_apply (v52 : Vec Ideal S1024x128 .f32) (v53 : Vec Ideal S1024x1 .f32) (r : Fin 1024) (d : Fin 128) :
    k0_pay3 (F := Ideal) v52 v53 (ix2 r d) = Ideal.div (v52 (ix2 r d)) (v53 (ix2 r (0 : Fin 1))) := by
  unfold k0_pay3
  try dsimp only
  refine (divf_apply _ _ _).trans ?_
  rw [broadcastTo_column_apply]

theorem pay2_eq (v23 : FVec Ideal S1024x1 .f32) : k0_pay2 (F := Ideal) v23 = v23 := by
  unfold k0_pay2
  exact shapeCast_self _ _

theorem pay4_apply (i : S1024x128.Idx) : k0_pay4 (F := Ideal) i = 0 := by
  unfold k0_pay4
  try dsimp only
  rw [shapeCast_self]
  exact ofBits_zero

theorem pay5_apply (i : S1024x1.Idx) : k0_pay5 (F := Ideal) i = ⊥ := by
  unfold k0_pay5
  try dsimp only
  rw [shapeCast_self]
  exact ofBits_neg_inf

theorem pay6_apply (i : S1024x1.Idx) : k0_pay6 (F := Ideal) i = 0 := by
  unfold k0_pay6
  try dsimp only
  rw [shapeCast_self]
  exact ofBits_zero

end Cert.KernelIdeal.KPay
end
-- ==== Proof.Algebra.lean ====
/-
  The streaming form of a softmax-weighted average, over the reals.

  The keys are visited in `T` tiles of `B` columns.  After `j` tiles the computation carries a reference point `m`
  (the largest logit met so far; any real number would do), the sum `l` of `exp (x - m)` over the columns met so far and
  the sum `a` of `exp (x - m) * v` over them.  Meeting a new tile moves the reference point to `m'` and rescales both
  sums by `exp (m - m')`, because `exp (m - m') * exp (x - m) = exp (x - m')`; before the first tile the reference
  point is the bottom of the extended reals and both sums are zero, and `exp ⊥ = 0` makes the same formula right.
  After the last tile `a / l` is the softmax-weighted average, whatever the reference point is, since the factor
  `exp (-m)` cancels between numerator and denominator.
-/
import proofs.«116552_j81827716923995_2_alg».proof.Proof.Spec

noncomputable section

namespace Cert.Attn

open Idealize.ShloMosaic

variable {T B : ℕ}

/-- The tiles before tile `j`. -/
def before (T : ℕ) (j : ℕ) : Finset (Fin T) := Finset.univ.filter fun t => t.val < j

/-- The sum of `exp (x - μ)` over the columns of the first `j` tiles. -/
def pS (x : Fin T → Fin B → ℝ) (μ : ℝ) (j : ℕ) : ℝ := ∑ t ∈ before T j, ∑ b, Real.exp (x t b - μ)

/-- The sum of `exp (x - μ) * v` over the columns of the first `j` tiles. -/
def pA (x v : Fin T → Fin B → ℝ) (μ : ℝ) (j : ℕ) : ℝ := ∑ t ∈ before T j, ∑ b, Real.exp (x t b - μ) * v t b

/-- The carried reference point and denominator after `j` tiles. -/
def InvL (x : Fin T → Fin B → ℝ) (j : ℕ) (m l : EReal) : Prop :=
  (j = 0 ∧ m = ⊥ ∧ l = 0) ∨ (0 < j ∧ ∃ μ : ℝ, m = (μ : EReal) ∧ l = ((pS x μ j : ℝ) : EReal))

/-- The carried reference point and numerator after `j` tiles. -/
def InvA (x v : Fin T → Fin B → ℝ) (j : ℕ) (m a : EReal) : Prop :=
  (j = 0 ∧ m = ⊥ ∧ a = 0) ∨ (0 < j ∧ ∃ μ : ℝ, m = (μ : EReal) ∧ a = ((pA x v μ j : ℝ) : EReal))

/-- The reference point after tile `j`: the larger of the old one and the tile's largest logit. -/
def mNew (x : Fin T → Fin B → ℝ) (j : Fin T) (m : EReal) : EReal :=
  max m ((Finset.univ : Finset (Fin B)).fold max ⊥ fun b => ((x j b : ℝ) : EReal))

/-- The inclusion of the reals in the extended reals carries a finite sum to the sum of the inclusions. -/
theorem coe_finset_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The inclusion of the reals in the extended reals carries the larger of two numbers to the larger. -/
theorem coe_max (a b : ℝ) : ((max a b : ℝ) : EReal) = max (a : EReal) (b : EReal) :=
  EReal.coe_strictMono.monotone.map_max

/-- The largest of finitely many real numbers, at least one of them, is a real number. -/
theorem fold_max_coe {ι : Type} (s : Finset ι) (hs : s.Nonempty) (f : ι → ℝ) :
    ∃ r : ℝ, s.fold max ⊥ (fun i => ((f i : ℝ) : EReal)) = (r : EReal) := by
  classical
  induction s using Finset.induction_on with
  | empty => exact absurd hs (by simp)
  | insert a s ha ih =>
    rw [Finset.fold_insert ha]
    rcases s.eq_empty_or_nonempty with rfl | hne
    · exact ⟨f a, by simp⟩
    · obtain ⟨r, hr⟩ := ih hne
      exact ⟨max (f a) r, by rw [hr, coe_max]⟩

/-- The new reference point is a real number, whether the old one is a real number or the bottom. -/
theorem mNew_coe (hB : 0 < B) (x : Fin T → Fin B → ℝ) (j : Fin T) (m : EReal)
    (hm : m = ⊥ ∨ ∃ μ : ℝ, m = (μ : EReal)) : ∃ ν : ℝ, mNew x j m = (ν : EReal) := by
  haveI : Nonempty (Fin B) := ⟨⟨0, hB⟩⟩
  obtain ⟨ρ, hρ⟩ := fold_max_coe (Finset.univ : Finset (Fin B)) Finset.univ_nonempty (x j)
  unfold mNew
  rw [hρ]
  rcases hm with rfl | ⟨μ, rfl⟩
  · exact ⟨ρ, by simp⟩
  · exact ⟨max μ ρ, by rw [coe_max]⟩

/-- No tile comes before the first. -/
theorem before_zero : before T 0 = ∅ := by simp [before]

/-- The tiles before tile `j + 1` are tile `j` and the tiles before it. -/
theorem before_succ (j : Fin T) : before T (j.val + 1) = insert j (before T j.val) := by
  ext t
  simp only [before, Finset.mem_filter, Finset.mem_univ, true_and, Finset.mem_insert, Fin.ext_iff]
  omega

theorem not_mem_before (j : Fin T) : j ∉ before T j.val := by simp [before]

/-- Every tile comes before the end. -/
theorem before_top : before T T = Finset.univ := by
  ext t; simp [before, t.isLt]

/-- The denominator is the numerator for the constant value one. -/
theorem pS_eq_pA (x : Fin T → Fin B → ℝ) (μ : ℝ) (j : ℕ) : pS x μ j = pA x (fun _ _ => 1) μ j := by
  simp [pS, pA]

theorem pA_zero (x v : Fin T → Fin B → ℝ) (μ : ℝ) : pA x v μ 0 = 0 := by simp [pA, before_zero]

/-- Meeting tile `j` adds its columns to the sum. -/
theorem pA_succ (x v : Fin T → Fin B → ℝ) (μ : ℝ) (j : Fin T) :
    pA x v μ (j.val + 1) = pA x v μ j.val + ∑ b, Real.exp (x j b - μ) * v j b := by
  unfold pA
  rw [before_succ, Finset.sum_insert (not_mem_before j), add_comm]

/-- Moving the reference point from `μ` to `ν` multiplies the sum by `exp (μ - ν)`. -/
theorem pA_rescale (x v : Fin T → Fin B → ℝ) (μ ν : ℝ) (j : ℕ) : Real.exp (μ - ν) * pA x v μ j = pA x v ν j := by
  unfold pA
  rw [Finset.mul_sum]
  refine Finset.sum_congr rfl fun t _ => ?_
  rw [Finset.mul_sum]
  refine Finset.sum_congr rfl fun b _ => ?_
  rw [← mul_assoc, ← Real.exp_add]
  congr 2; ring

theorem invL_iff_invA (x : Fin T → Fin B → ℝ) (j : ℕ) (m l : EReal) :
    InvL x j m l ↔ InvA x (fun _ _ => 1) j m l := by
  unfold InvL InvA
  simp only [pS_eq_pA]

theorem stepA (hB : 0 < B) (x v : Fin T → Fin B → ℝ) (j : Fin T) (m a : EReal) (h : InvA x v j.val m a) :
    InvA x v (j.val + 1) (mNew x j m)
      (Ideal.exp (m - mNew x j m) * a
        + ∑ b : Fin B, Ideal.exp (((x j b : ℝ) : EReal) - mNew x j m) * ((v j b : ℝ) : EReal)) := by
  have hm : m = ⊥ ∨ ∃ μ : ℝ, m = (μ : EReal) := by
    rcases h with ⟨_, hm, _⟩ | ⟨_, μ, hm, _⟩
    · exact Or.inl hm
    · exact Or.inr ⟨μ, hm⟩
  obtain ⟨ν, hν⟩ := mNew_coe hB x j m hm
  rw [hν]
  refine Or.inr ⟨Nat.succ_pos _, ν, rfl, ?_⟩
  have hsum : ∑ b : Fin B, Ideal.exp (((x j b : ℝ) : EReal) - (ν : EReal)) * ((v j b : ℝ) : EReal)
      = ((∑ b, Real.exp (x j b - ν) * v j b : ℝ) : EReal) := by
    rw [coe_finset_sum]
    refine Finset.sum_congr rfl fun b _ => ?_
    rw [← EReal.coe_sub, Ideal.exp_coe, ← EReal.coe_mul]
  rw [hsum, pA_succ]
  rcases h with ⟨hj, rfl, rfl⟩ | ⟨_, μ, rfl, rfl⟩
  · rw [mul_zero, zero_add, hj, pA_zero, zero_add]
  · rw [← EReal.coe_sub, Ideal.exp_coe, ← EReal.coe_mul, ← EReal.coe_add, pA_rescale]

theorem stepL (hB : 0 < B) (x : Fin T → Fin B → ℝ) (j : Fin T) (m l : EReal) (h : InvL x j.val m l) :
    InvL x (j.val + 1) (mNew x j m)
      (Ideal.exp (m - mNew x j m) * l + ∑ b : Fin B, Ideal.exp (((x j b : ℝ) : EReal) - mNew x j m)) := by
  have h' := stepA hB x (fun _ _ => 1) j m l ((invL_iff_invA x j.val m l).mp h)
  rw [invL_iff_invA]
  simp only [EReal.coe_one, mul_one] at h'
  exact h'

theorem final (hT : 0 < T) (hB : 0 < B) (x v : Fin T → Fin B → ℝ) (m l a : EReal) (hl : InvL x T m l)
    (ha : InvA x v T m a) :
    Ideal.div a l = ((wsum (fun p : Fin T × Fin B => x p.1 p.2) (fun p : Fin T × Fin B => v p.1 p.2) : ℝ) : EReal) := by
  rcases hl with ⟨h0, _, _⟩ | ⟨_, μ, hm, rfl⟩
  · exact absurd h0 hT.ne'
  rcases ha with ⟨h0, _, _⟩ | ⟨_, μ', hm', rfl⟩
  · exact absurd h0 hT.ne'
  have hμ : μ' = μ := EReal.coe_injective (hm'.symm.trans hm)
  subst hμ
  have hS : pS x μ' T = (∑ p : Fin T × Fin B, Real.exp (x p.1 p.2)) / Real.exp μ' := by
    unfold pS
    rw [before_top, Fintype.sum_prod_type' (fun t b => Real.exp (x t b)), Finset.sum_div]
    refine Finset.sum_congr rfl fun t _ => ?_
    rw [Finset.sum_div]
    refine Finset.sum_congr rfl fun b _ => ?_
    rw [Real.exp_sub]
  have hA : pA x v μ' T = (∑ p : Fin T × Fin B, Real.exp (x p.1 p.2) * v p.1 p.2) / Real.exp μ' := by
    unfold pA
    rw [before_top, Fintype.sum_prod_type' (fun t b => Real.exp (x t b) * v t b), Finset.sum_div]
    refine Finset.sum_congr rfl fun t _ => ?_
    rw [Finset.sum_div]
    refine Finset.sum_congr rfl fun b _ => ?_
    rw [Real.exp_sub, div_mul_eq_mul_div]
  have hpos : 0 < ∑ p : Fin T × Fin B, Real.exp (x p.1 p.2) := by
    haveI : Nonempty (Fin T) := ⟨⟨0, hT⟩⟩
    haveI : Nonempty (Fin B) := ⟨⟨0, hB⟩⟩
    exact Finset.sum_pos (fun p _ => Real.exp_pos _) Finset.univ_nonempty
  have hS0 : pS x μ' T ≠ 0 := by
    rw [hS]; exact (div_pos hpos (Real.exp_pos μ')).ne'
  rw [Ideal.div_coe hS0, ← EReal.coe_mul, mul_one_div, hS, hA,
    div_div_div_cancel_right₀ (Real.exp_pos μ').ne']
  rfl

theorem wsum_equiv {ι κ : Type} [Fintype ι] [Fintype κ] (e : ι ≃ κ) (x v : κ → ℝ) :
    wsum (fun i => x (e i)) (fun i => v (e i)) = wsum x v := by
  unfold wsum
  rw [Equiv.sum_comp e (fun c => Real.exp (x c) * v c), Equiv.sum_comp e (fun c => Real.exp (x c))]

end Cert.Attn

end
-- ==== Proof.KStep.lean ====
/-
  One tile's update of the carried reference point, denominator and numerator, row by row.

  For a row whose logits in tile `j` are the real numbers `x j b` and whose key entries in column `d` are `v j b`, the body's
  new reference point is `mNew`, its new denominator the rescaled old one plus the tile's sum of exponentials, its new
  numerator the rescaled old one plus the tile's weighted sum: exactly the streaming step of the softmax-weighted
  average, so the row's invariant moves from `j` tiles to `j + 1`.
-/
import proofs.«116552_j81827716923995_2_alg».proof.Proof.KPieces
import proofs.«116552_j81827716923995_2_alg».proof.Proof.KPay
import proofs.«116552_j81827716923995_2_alg».proof.Proof.Algebra

noncomputable section

namespace Cert.KernelIdeal.KV

open Cert.KernelIdeal Cert.KernelIdeal.Gen Idealize.ShloMosaic Idealize.ShloMosaic.ValueIdx Cert.Attn Cert.KernelIdeal.KPay

variable (kt q : Vec Ideal S1024x128 .f32) (mk : Vec Ideal S1024x1024 .i32)

/-- The new reference point of row `r` is the streaming step's. -/
theorem mStep_apply (s1 : Vec Ideal S1024x1 .f32) (x : Fin 8 → Fin 1024 → ℝ) (j : Fin 8) (r : Fin 1024)
    (hx : ∀ b, tLogit kt q mk r b = ((x j b : ℝ) : EReal)) :
    mStep (F := Ideal) kt q mk s1 (ix2 r (0 : Fin 1)) = mNew x j (s1 (ix2 r (0 : Fin 1))) := by
  show k0_pay2 (F := Ideal) (k0_pay9 (F := Ideal) kt q mk s1) (ix2 r (0 : Fin 1)) = _
  rw [pay2_eq, pay9_apply]
  unfold mNew
  exact congrArg (max _) (congrArg (fun f => (Finset.univ : Finset (Fin 1024)).fold max (⊥ : EReal) f) (funext hx))

/-- The reference point and the denominator of row `r` after the tile. -/
theorem stepL_row (s1 s2 : Vec Ideal S1024x1 .f32) (x : Fin 8 → Fin 1024 → ℝ) (j : Fin 8) (r : Fin 1024)
    (hx : ∀ b, tLogit kt q mk r b = ((x j b : ℝ) : EReal))
    (h : InvL x j.val (s1 (ix2 r (0 : Fin 1))) (s2 (ix2 r (0 : Fin 1)))) :
    InvL x (j.val + 1) (mStep (F := Ideal) kt q mk s1 (ix2 r (0 : Fin 1))) (lStep (F := Ideal) kt q mk s1 s2 (ix2 r (0 : Fin 1))) := by
  have hm := mStep_apply kt q mk s1 x j r hx
  have h9 : k0_pay9 (F := Ideal) kt q mk s1 (ix2 r (0 : Fin 1)) = mNew x j (s1 (ix2 r (0 : Fin 1))) := by
    rw [← hm]; show _ = k0_pay2 (F := Ideal) (k0_pay9 (F := Ideal) kt q mk s1) (ix2 r (0 : Fin 1)); rw [pay2_eq]
  rw [hm]
  show InvL x (j.val + 1) _ (k0_pay12 (F := Ideal) kt q mk s1 s2 (ix2 r (0 : Fin 1)))
  rw [pay12_apply, pay11_apply, h9]
  have e : ∀ b, k0_pay10 (F := Ideal) kt q mk s1 (ix2 r b)
      = Ideal.exp (((x j b : ℝ) : EReal) - mNew x j (s1 (ix2 r (0 : Fin 1)))) := fun b => by
    rw [pay10_apply, h9, hx]
  rw [Finset.sum_congr rfl fun b _ => e b]
  exact stepL (by decide) x j _ _ h

/-- The reference point and the numerator of row `r`, column `d`, after the tile. -/
theorem stepA_row (s0 : Vec Ideal S1024x128 .f32) (s1 : Vec Ideal S1024x1 .f32) (x v : Fin 8 → Fin 1024 → ℝ) (j : Fin 8)
    (r : Fin 1024) (d : Fin 128) (hx : ∀ b, tLogit kt q mk r b = ((x j b : ℝ) : EReal))
    (hv : ∀ b, kt (ix2 b d) = ((v j b : ℝ) : EReal))
    (h : InvA x v j.val (s1 (ix2 r (0 : Fin 1))) (s0 (ix2 r d))) :
    InvA x v (j.val + 1) (mStep (F := Ideal) kt q mk s1 (ix2 r (0 : Fin 1))) (aStep (F := Ideal) kt q mk s0 s1 (ix2 r d)) := by
  have hm := mStep_apply kt q mk s1 x j r hx
  have h9 : k0_pay9 (F := Ideal) kt q mk s1 (ix2 r (0 : Fin 1)) = mNew x j (s1 (ix2 r (0 : Fin 1))) := by
    rw [← hm]; show _ = k0_pay2 (F := Ideal) (k0_pay9 (F := Ideal) kt q mk s1) (ix2 r (0 : Fin 1)); rw [pay2_eq]
  rw [hm]
  show InvA x v (j.val + 1) _ (k0_pay1 (F := Ideal) (k0_pay7 (F := Ideal) kt) (k0_pay10 (F := Ideal) kt q mk s1)
    (k0_pay11 (F := Ideal) kt q mk s1) s0 (ix2 r d))
  rw [pay1_apply, pay11_apply, h9]
  have e : ∀ b, k0_pay10 (F := Ideal) kt q mk s1 (ix2 r b) * k0_pay7 (F := Ideal) kt (ix2 b d)
      = Ideal.exp (((x j b : ℝ) : EReal) - mNew x j (s1 (ix2 r (0 : Fin 1)))) * ((v j b : ℝ) : EReal) := fun b => by
    rw [pay10_apply, h9, hx, ← hv b]; rfl
  rw [Finset.sum_congr rfl fun b _ => e b]
  exact stepA (by decide) x v j _ _ h

/-- The result entry after the last tile: the quotient of numerator by denominator is the softmax-weighted average. -/
theorem out_row (a : Vec Ideal S1024x128 .f32) (l : Vec Ideal S1024x1 .f32) (x v : Fin 8 → Fin 1024 → ℝ) (m₀ : EReal)
    (r : Fin 1024) (d : Fin 128) (hl : InvL x 8 m₀ (l (ix2 r (0 : Fin 1)))) (ha : InvA x v 8 m₀ (a (ix2 r d))) :
    k0_pay3 (F := Ideal) a l (ix2 r d)
      = ((wsum (fun p : Fin 8 × Fin 1024 => x p.1 p.2) (fun p : Fin 8 × Fin 1024 => v p.1 p.2) : ℝ) : EReal) := by
  rw [pay3_apply]
  exact final (by decide) (by decide) x v m₀ _ _ hl ha

end Cert.KernelIdeal.KV
end
-- ==== Proof.KBlocks.lean ====
/-
  The blocks the kernel reads at a grid point, as entries of the argument arrays.

  Grid point `t` of the 8 by 8 grid is row block `t / 8` and key tile `t % 8`.  There the kernel reads rows
  `1024 (t / 8) + r` of the queries, the block of the adjacency table at those rows and columns `1024 (t % 8) + b`,
  and, out of the whole array of keys, rows `1024 (t % 8) + b`.  A block's coordinate on an axis is its block index
  times the block's extent plus the coordinate inside the block.
-/
import proofs.«116552_j81827716923995_2_alg».proof.Proof.KPieces
import proofs.«116552_j81827716923995_2_alg».proof.Proof.Gen.KernelIdeal.Value
import Idealize.ShloMosaic.Lib.ValueIdx
import Idealize.ShloMosaic.Lib.Pipeline.Value

noncomputable section

namespace Cert.KernelIdeal.KV

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The row of the whole arrays that row `r` of grid point `t`'s row block is. -/
def grow (t : Fin cfg0.N) (r : Fin 1024) : Fin 8192 :=
  ⟨1024 * (t.val / 8) + r.val, by have := t.isLt; have h : cfg0.N = 64 := N_0; have := r.isLt; omega⟩

/-- The key that column `b` of grid point `t`'s key tile is. -/
def gcol (t : Fin cfg0.N) (b : Fin 1024) : Fin 8192 :=
  ⟨1024 * (t.val % 8) + b.val, by have := b.isLt; omega⟩

/-- The block indices of the windows and the offset of the key tile, over the grid. -/
theorem idx_facts : ∀ t : Fin cfg0.N,
    win0_0.index t (0 : Fin 2) = t.val / 8 ∧ win0_0.index t (1 : Fin 2) = 0
    ∧ win0_1.index t (0 : Fin 2) = 0 ∧ win0_1.index t (1 : Fin 2) = 0
    ∧ win0_2.index t (0 : Fin 2) = t.val / 8 ∧ win0_2.index t (1 : Fin 2) = t.val % 8
    ∧ win0_3.index t (0 : Fin 2) = t.val / 8 ∧ win0_3.index t (1 : Fin 2) = 0
    ∧ (k0_off1 (grid0.coords t)) 0 = 1024 * (t.val % 8) ∧ (k0_off1 (grid0.coords t)) 1 = 0 :=
  (by decide +kernel : ∀ t : Fin grid0.N, _)

theorem iblk0_apply (c : Dev nD) (t : Fin cfg0.N) (r : Fin 1024) (d : Fin 128) :
    (iblk m c 0 t : Vec F S1024x128 .f32) (ValueIdx.ix2 r d)
      = m ((c : Thread nD τ).loc main_arg0) (ValueIdx.ix2 (grow t r) d) := by
  obtain ⟨e00, e01, -⟩ := idx_facts t
  unfold iblk
  rw [View.read_apply]
  show V m c main_arg0 _ = m (c.tc.loc main_arg0) _
  unfold V
  congr 1
  funext a
  apply Fin.ext
  match a with
  | ⟨0, _⟩ => show win0_0.index t 0 * 1024 + 1 * r.val = 1024 * (t.val / 8) + r.val; rw [e00]; omega
  | ⟨1, _⟩ => show win0_0.index t 1 * 128 + 1 * d.val = d.val; rw [e01]; omega

theorem iblk2_apply (c : Dev nD) (t : Fin cfg0.N) (r b : Fin 1024) :
    (iblk m c 2 t : Vec F S1024x1024 .i32) (ValueIdx.ix2 r b)
      = m ((c : Thread nD τ).loc main_arg2) (ValueIdx.ix2 (grow t r) (gcol t b)) := by
  obtain ⟨-, -, -, -, e20, e21, -⟩ := idx_facts t
  unfold iblk
  rw [View.read_apply]
  show V m c main_arg2 _ = m (c.tc.loc main_arg2) _
  unfold V
  congr 1
  funext a
  apply Fin.ext
  match a with
  | ⟨0, _⟩ => show win0_2.index t 0 * 1024 + 1 * r.val = 1024 * (t.val / 8) + r.val; rw [e20]; omega
  | ⟨1, _⟩ => show win0_2.index t 1 * 1024 + 1 * b.val = 1024 * (t.val % 8) + b.val; rw [e21]; omega

/-- The window of the keys is the whole array at every grid point. -/
theorem iblk1_apply (c : Dev nD) (t : Fin cfg0.N) (j : S8192x128.Idx) :
    (iblk m c 1 t : Vec F S8192x128 .f32) j = m ((c : Thread nD τ).loc main_arg1) j := by
  obtain ⟨-, -, e10, e11, -⟩ := idx_facts t
  unfold iblk
  rw [View.read_apply]
  show V m c main_arg1 _ = m (c.tc.loc main_arg1) _
  unfold V
  congr 1
  funext a
  apply Fin.ext
  match a with
  | ⟨0, _⟩ => show win0_1.index t 0 * 8192 + 1 * (j 0).val = (j 0).val; rw [e10]; omega
  | ⟨1, _⟩ => show win0_1.index t 1 * 128 + 1 * (j 1).val = (j 1).val; rw [e11]; omega

theorem ktile_apply (c : Dev nD) (t : Fin cfg0.N) (b : Fin 1024) (d : Fin 128) :
    ktile (grid0.coords t) (iblk m c 1 t : Vec F S8192x128 .f32) (ValueIdx.ix2 b d)
      = m ((c : Thread nD τ).loc main_arg1) (ValueIdx.ix2 (gcol t b) d) := by
  obtain ⟨-, -, -, -, -, -, -, -, ek0, ek1⟩ := idx_facts t
  show (iblk m c 1 t : Vec F S8192x128 .f32)
    ((Rect.unit (s := S8192x128) (k0_off1 (grid0.coords t)) S1024x128.size (k0_off1_inb (grid0.coords t))).emb (ValueIdx.ix2 b d)) = _
  rw [iblk1_apply]
  congr 1
  funext a
  apply Fin.ext
  match a with
  | ⟨0, _⟩ => show (k0_off1 (grid0.coords t)) 0 + 1 * b.val = 1024 * (t.val % 8) + b.val; rw [ek0]; omega
  | ⟨1, _⟩ => show (k0_off1 (grid0.coords t)) 1 + 1 * d.val = d.val; rw [ek1]; omega

end Cert.KernelIdeal.KV
end
-- ==== Proof.Real.lean ====
/-
  Under the precondition every quantity of the specification is a real number.

  A product of two real numbers, a finite sum of real numbers and the larger of two real numbers are real numbers, so
  every score is one; the slope and the fill are real numbers, so every logit is one, whichever branch the adjacency
  table selects.  A real number is recovered from its real part.
-/
import proofs.«116552_j81827716923995_2_alg».proof.Proof.Spec

noncomputable section

namespace Cert.Attn

open Idealize.ShloMosaic Idealize.ShloMosaic.ValueIdx

/-- A finite sum of real numbers is a real number. -/
theorem sum_real {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨ra, hra⟩ := hf a (Finset.mem_insert_self a s)
    obtain ⟨rs, hrs⟩ := ih fun i hi => hf i (Finset.mem_insert_of_mem hi)
    exact ⟨ra + rs, by rw [Finset.sum_insert ha, hra, hrs, EReal.coe_add]⟩

/-- The score of real queries against real keys is a real number. -/
theorem score_real {q k : SQ.Idx → EReal} (hq : IsReal q) (hk : IsReal k) (n c : Fin 8192) :
    ∃ r : ℝ, score q k n c = (r : EReal) := by
  unfold score
  refine sum_real _ _ fun d _ => ?_
  obtain ⟨a, ha⟩ := hq (ix2 n d)
  obtain ⟨b, hb⟩ := hk (ix2 c d)
  exact ⟨a * b, by rw [ha, hb, EReal.coe_mul]⟩

/-- The leaky relu of a real number is a real number. -/
theorem leaky_real (r : ℝ) : ∃ t : ℝ, leaky (r : EReal) = (t : EReal) := by
  refine ⟨max r (13421773 / 67108864 * r), ?_⟩
  rw [leaky, slope_eq, ← EReal.coe_mul]
  exact (EReal.coe_strictMono.monotone.map_max).symm

/-- Every logit of real queries against real keys is a real number. -/
theorem logit_real {q k : SQ.Idx → EReal} (hq : IsReal q) (hk : IsReal k) (msk : SM.Idx → BitVec 32)
    (n c : Fin 8192) : ∃ r : ℝ, logit q k msk n c = (r : EReal) := by
  unfold logit Scalar.select
  split
  · obtain ⟨r, hr⟩ := score_real hq hk n c
    rw [hr]
    exact leaky_real r
  · exact ⟨_, fill_eq⟩

/-- A logit of real queries against real keys is its real part. -/
theorem logit_coe_toReal {q k : SQ.Idx → EReal} (hq : IsReal q) (hk : IsReal k) (msk : SM.Idx → BitVec 32)
    (n c : Fin 8192) : ((logit q k msk n c).toReal : EReal) = logit q k msk n c := by
  obtain ⟨r, hr⟩ := logit_real hq hk msk n c
  rw [hr, EReal.toReal_coe]

/-- An entry of an array of real numbers is its real part. -/
theorem coe_toReal_of_isReal {s : Shape} {a : s.Idx → EReal} (h : IsReal a) (i : s.Idx) :
    ((a i).toReal : EReal) = a i := by
  obtain ⟨r, hr⟩ := h i
  rw [hr, EReal.toReal_coe]

end Cert.Attn

end
-- ==== Proof.KInv.lean ====
/-
  The carried scratch after every grid point, row by row, and the block the last tile of a block row stores.

  Grid point t = 8·i + j works on block row i (query rows 1024·i … 1024·i + 1023) and key tile j (key rows
  1024·j … 1024·j + 1023).  After point t the three scratch buffers hold, for every row of the block row, the streaming
  state of the softmax-weighted average after j + 1 tiles: by induction on t, the first tile of a block row starting from
  the reset values (bottom, zero, zero) and every later tile from what the tile before left.  At the last tile the
  stored block is numerator over denominator, the softmax-weighted average of the keys' columns: the result's entry.
-/
import proofs.«116552_j81827716923995_2_alg».proof.Proof.KStep
import proofs.«116552_j81827716923995_2_alg».proof.Proof.KBlocks
import proofs.«116552_j81827716923995_2_alg».proof.Proof.Real

noncomputable section

namespace Cert.KernelIdeal.KV

open Cert.KernelIdeal Cert.KernelIdeal.Gen Idealize.ShloMosaic Idealize.ShloMosaic.TcCoe Idealize.SL.Sem
open Idealize.ShloMosaic.ValueIdx Cert.Attn Cert.KernelIdeal.KPay

variable (m : (ℓ : Loc nD τ sig) → Buf (Elt Ideal) ℓ)

/-- Key row 1024·j + b as the pair (tile j, position b). -/
def colE : Fin 8 × Fin 1024 ≃ Fin 8192 := finProdFinEquiv

theorem colE_val (j : Fin 8) (b : Fin 1024) : (colE (j, b)).val = b.val + 1024 * j.val := rfl

/-- The key tile a grid point works on. -/
def tj (t : Fin cfg0.N) : Fin 8 := ⟨t.val % 8, Nat.mod_lt _ (by decide)⟩

theorem gcol_eq (t : Fin cfg0.N) (b : Fin 1024) : gcol t b = colE (tj t, b) :=
  Fin.ext (by show 1024 * (t.val % 8) + b.val = b.val + 1024 * (t.val % 8); omega)

/-- The three argument arrays on a device. -/
abbrev aQ (c : Dev nD) : SQ.Idx → EReal := m ((c : Thread nD τ).loc main_arg0)
abbrev aK (c : Dev nD) : SQ.Idx → EReal := m ((c : Thread nD τ).loc main_arg1)
abbrev aM (c : Dev nD) : SM.Idx → BitVec 32 := m ((c : Thread nD τ).loc main_arg2)

/-- The real logits of query row `n`, by key tile and position in the tile. -/
def xr (c : Dev nD) (n : Fin 8192) : Fin 8 → Fin 1024 → ℝ :=
  fun j b => (logit (aQ m c) (aK m c) (aM m c) n (colE (j, b))).toReal

/-- Column `d` of the keys as real numbers, by key tile and position in the tile. -/
def vr (c : Dev nD) (d : Fin 128) : Fin 8 → Fin 1024 → ℝ :=
  fun j b => (aK m c (ix2 (colE (j, b)) d)).toReal

/-- The logits the body computes at a point are the logits of the point's query rows against its key tile. -/
theorem tLogit_point (c : Dev nD) (hq : IsReal (aQ m c)) (hk : IsReal (aK m c)) (t : Fin cfg0.N) (r b : Fin 1024) :
    tLogit (ktile (grid0.coords t) (iblk m c 1 t)) (iblk m c 0 t) (iblk m c 2 t) r b
      = ((xr m c (grow t r) (tj t) b : ℝ) : EReal) := by
  unfold xr
  rw [logit_coe_toReal hq hk]
  unfold tLogit tScore logit score
  rw [iblk2_apply, gcol_eq]
  simp only [iblk0_apply, ktile_apply, gcol_eq]

/-- The key tile's entries are the keys' entries. -/
theorem ktile_point (c : Dev nD) (hk : IsReal (aK m c)) (t : Fin cfg0.N) (b : Fin 1024) (d : Fin 128) :
    ktile (grid0.coords t) (iblk m c 1 t) (ix2 b d) = ((vr m c d (tj t) b : ℝ) : EReal) := by
  unfold vr
  rw [coe_toReal_of_isReal hk, ktile_apply, gcol_eq]

/-- What the scratch holds after a point: for each row of the point's block row, the streaming state after the
    point's tile. -/
def RowInv (c : Dev nD) (n : ℕ) (h : n < cfg0.N) : Prop :=
  ∀ r : Fin 1024,
    InvL (xr m c (grow ⟨n, h⟩ r)) (n % 8 + 1) ((outsAt0 m c n h).2.2.1 (ix2 r (0 : Fin 1)))
        ((outsAt0 m c n h).2.2.2 (ix2 r (0 : Fin 1)))
      ∧ ∀ d : Fin 128, InvA (xr m c (grow ⟨n, h⟩ r)) (vr m c d) (n % 8 + 1)
        ((outsAt0 m c n h).2.2.1 (ix2 r (0 : Fin 1))) ((outsAt0 m c n h).2.1 (ix2 r d))

/-- A first tile: the scratch is reset and the tile's step runs from the reset values. -/
theorem rowInv_A (c : Dev nD) (hq : IsReal (aQ m c)) (hk : IsReal (aK m c)) (t : Fin cfg0.N) (h0 : t.val % 8 = 0)
    (h1 : ¬t.val % 8 = 7) : RowInv m c t.val t.isLt := by
  intro r
  rw [outsAt0_A m c t h0 h1]
  dsimp only
  rw [sout_A_0 (F := Ideal) c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _)
      ((hcond0_0 t).mpr h0) (fun h => h1 ((hcond0_1 t).mp h)) (iblk m c 0 t) (iblk m c 1 t) (iblk m c 2 t),
    sout_A_1 (F := Ideal) c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _)
      ((hcond0_0 t).mpr h0) (fun h => h1 ((hcond0_1 t).mp h)) (iblk m c 0 t) (iblk m c 1 t) (iblk m c 2 t),
    sout_A_2 (F := Ideal) c (grid0.coords t) (ms0_0 t) (hs0_0 t) (ms0_1 t) (hs0_1 t) (ms0_2 t) (hs0_2 t) (ms0_3 t) (hs0_3 t)
      scM0_0 (Memref.isWhole_whole _) scM0_1 (Memref.isWhole_whole _) scM0_2 (Memref.isWhole_whole _)
      ((hcond0_0 t).mpr h0) (fun h => h1 ((hcond0_1 t).mp h)) (iblk m c 0 t) (iblk m c 1 t) (iblk m c 2 t)]
  have hx := tLogit_point m c hq hk t r
  have hj : (tj t).val = 0 := h0
  refine ⟨?_, fun d => ?_⟩
  · have := stepL_row (ktile (grid0.coords t) (iblk m c 1 t)) (iblk m c 0 t) (iblk m c 2 t) (k0_pay5 (F := Ideal)) (k0_pay6 (F := Ideal))
      (xr m c (grow t r)) (tj t) r hx (Or.inl ⟨hj, pay5_apply _, pay6_apply _⟩)
    exact this
  · have := stepA_row (ktile (grid0.coords t) (iblk m c 1 t)) (iblk m c 0 t) (iblk m c 2 t) (k0_pay4 (F := Ideal)) (k0_pay5 (F := Ideal))
      (xr m c (grow t r)) (vr m c d) (tj t) r d hx (fun b => ktile_point m c hk t b d)
      (Or.inl ⟨hj, pay5_apply _, pay4_apply _⟩)
    exact this

/-- A later tile: the step runs from what the tile before left. -/
theorem rowInv_step (c : Dev nD) (hq : IsReal (aQ m c)) (hk : IsReal (aK m c)) (n : ℕ) (h : n + 1 < cfg0.N)
    (h0 : ¬(n + 1) % 8 = 0) (ih : RowInv m c n (Nat.lt_of_succ_lt h)) : RowInv m c (n + 1) h := by
  intro r
  by_cases h1 : (n + 1) % 8 = 7
  · rw [outsAt0_C m c (⟨n + 1, h⟩ : Fin cfg0.N) h0 h1]
    dsimp only
    simp only [Nat.add_sub_cancel]
    rw [sout_C_0 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N))
      scM0_0 (Memref.isWhole_whole _) scM0_1 (Memref.isWhole_whole _) scM0_2 (Memref.isWhole_whole _)
      (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (outsAt0 m c n (Nat.lt_of_succ_lt h)).2.1 (outsAt0 m c n (Nat.lt_of_succ_lt h)).2.2.1 (outsAt0 m c n (Nat.lt_of_succ_lt h)).2.2.2,
      sout_C_1 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N))
      scM0_0 (Memref.isWhole_whole _) scM0_1 (Memref.isWhole_whole _) scM0_2 (Memref.isWhole_whole _)
      (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (outsAt0 m c n (Nat.lt_of_succ_lt h)).2.1 (outsAt0 m c n (Nat.lt_of_succ_lt h)).2.2.1 (outsAt0 m c n (Nat.lt_of_succ_lt h)).2.2.2,
      sout_C_2 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N))
      scM0_0 (Memref.isWhole_whole _) scM0_1 (Memref.isWhole_whole _) scM0_2 (Memref.isWhole_whole _)
      (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (outsAt0 m c n (Nat.lt_of_succ_lt h)).2.1 (outsAt0 m c n (Nat.lt_of_succ_lt h)).2.2.1 (outsAt0 m c n (Nat.lt_of_succ_lt h)).2.2.2]
    have hx := tLogit_point m c hq hk (⟨n + 1, h⟩ : Fin cfg0.N) r
    have hg : grow (⟨n + 1, h⟩ : Fin cfg0.N) r = grow ⟨n, Nat.lt_of_succ_lt h⟩ r :=
      Fin.ext (by show 1024 * ((n + 1) / 8) + r.val = 1024 * (n / 8) + r.val; omega)
    have hj : (tj (⟨n + 1, h⟩ : Fin cfg0.N)).val = n % 8 + 1 := by show (n + 1) % 8 = n % 8 + 1; omega
    obtain ⟨ihL, ihA⟩ := ih r
    rw [← hg, ← hj] at ihL
    refine ⟨?_, fun d => ?_⟩
    · exact stepL_row (ktile (grid0.coords (⟨n + 1, h⟩ : Fin cfg0.N)) (iblk m c 1 (⟨n + 1, h⟩ : Fin cfg0.N))) (iblk m c 0 (⟨n + 1, h⟩ : Fin cfg0.N)) (iblk m c 2 (⟨n + 1, h⟩ : Fin cfg0.N))
        (outsAt0 m c n (Nat.lt_of_succ_lt h)).2.2.1 (outsAt0 m c n (Nat.lt_of_succ_lt h)).2.2.2
        (xr m c (grow (⟨n + 1, h⟩ : Fin cfg0.N) r)) (tj (⟨n + 1, h⟩ : Fin cfg0.N)) r hx ihL
    · have ihAd := ihA d
      rw [← hg, ← hj] at ihAd
      exact stepA_row (ktile (grid0.coords (⟨n + 1, h⟩ : Fin cfg0.N)) (iblk m c 1 (⟨n + 1, h⟩ : Fin cfg0.N))) (iblk m c 0 (⟨n + 1, h⟩ : Fin cfg0.N)) (iblk m c 2 (⟨n + 1, h⟩ : Fin cfg0.N))
        (outsAt0 m c n (Nat.lt_of_succ_lt h)).2.1 (outsAt0 m c n (Nat.lt_of_succ_lt h)).2.2.1
        (xr m c (grow (⟨n + 1, h⟩ : Fin cfg0.N) r)) (vr m c d) (tj (⟨n + 1, h⟩ : Fin cfg0.N)) r d hx (fun b => ktile_point m c hk (⟨n + 1, h⟩ : Fin cfg0.N) b d) ihAd
  · rw [outsAt0_B m c (⟨n + 1, h⟩ : Fin cfg0.N) h0 h1]
    dsimp only
    simp only [Nat.add_sub_cancel]
    rw [sout_B_0 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N))
      scM0_0 (Memref.isWhole_whole _) scM0_1 (Memref.isWhole_whole _) scM0_2 (Memref.isWhole_whole _)
      (fun hh => h0 ((hcond0_0 (⟨n + 1, h⟩ : Fin cfg0.N)).mp hh)) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (outsAt0 m c n (Nat.lt_of_succ_lt h)).2.1 (outsAt0 m c n (Nat.lt_of_succ_lt h)).2.2.1 (outsAt0 m c n (Nat.lt_of_succ_lt h)).2.2.2,
      sout_B_1 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N))
      scM0_0 (Memref.isWhole_whole _) scM0_1 (Memref.isWhole_whole _) scM0_2 (Memref.isWhole_whole _)
      (fun hh => h0 ((hcond0_0 (⟨n + 1, h⟩ : Fin cfg0.N)).mp hh)) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (outsAt0 m c n (Nat.lt_of_succ_lt h)).2.1 (outsAt0 m c n (Nat.lt_of_succ_lt h)).2.2.1 (outsAt0 m c n (Nat.lt_of_succ_lt h)).2.2.2,
      sout_B_2 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N))
      scM0_0 (Memref.isWhole_whole _) scM0_1 (Memref.isWhole_whole _) scM0_2 (Memref.isWhole_whole _)
      (fun hh => h0 ((hcond0_0 (⟨n + 1, h⟩ : Fin cfg0.N)).mp hh)) (fun hh => h1 ((hcond0_1 (⟨n + 1, h⟩ : Fin cfg0.N)).mp hh)) (iblk m c 0 (⟨n + 1, h⟩ : Fin cfg0.N)) (iblk m c 1 (⟨n + 1, h⟩ : Fin cfg0.N)) (iblk m c 2 (⟨n + 1, h⟩ : Fin cfg0.N)) (outsAt0 m c n (Nat.lt_of_succ_lt h)).2.1 (outsAt0 m c n (Nat.lt_of_succ_lt h)).2.2.1 (outsAt0 m c n (Nat.lt_of_succ_lt h)).2.2.2]
    have hx := tLogit_point m c hq hk (⟨n + 1, h⟩ : Fin cfg0.N) r
    have hg : grow (⟨n + 1, h⟩ : Fin cfg0.N) r = grow ⟨n, Nat.lt_of_succ_lt h⟩ r :=
      Fin.ext (by show 1024 * ((n + 1) / 8) + r.val = 1024 * (n / 8) + r.val; omega)
    have hj : (tj (⟨n + 1, h⟩ : Fin cfg0.N)).val = n % 8 + 1 := by show (n + 1) % 8 = n % 8 + 1; omega
    obtain ⟨ihL, ihA⟩ := ih r
    rw [← hg, ← hj] at ihL
    refine ⟨?_, fun d => ?_⟩
    · exact stepL_row (ktile (grid0.coords (⟨n + 1, h⟩ : Fin cfg0.N)) (iblk m c 1 (⟨n + 1, h⟩ : Fin cfg0.N))) (iblk m c 0 (⟨n + 1, h⟩ : Fin cfg0.N)) (iblk m c 2 (⟨n + 1, h⟩ : Fin cfg0.N))
        (outsAt0 m c n (Nat.lt_of_succ_lt h)).2.2.1 (outsAt0 m c n (Nat.lt_of_succ_lt h)).2.2.2
        (xr m c (grow (⟨n + 1, h⟩ : Fin cfg0.N) r)) (tj (⟨n + 1, h⟩ : Fin cfg0.N)) r hx ihL
    · have ihAd := ihA d
      rw [← hg, ← hj] at ihAd
      exact stepA_row (ktile (grid0.coords (⟨n + 1, h⟩ : Fin cfg0.N)) (iblk m c 1 (⟨n + 1, h⟩ : Fin cfg0.N))) (iblk m c 0 (⟨n + 1, h⟩ : Fin cfg0.N)) (iblk m c 2 (⟨n + 1, h⟩ : Fin cfg0.N))
        (outsAt0 m c n (Nat.lt_of_succ_lt h)).2.1 (outsAt0 m c n (Nat.lt_of_succ_lt h)).2.2.1
        (xr m c (grow (⟨n + 1, h⟩ : Fin cfg0.N) r)) (vr m c d) (tj (⟨n + 1, h⟩ : Fin cfg0.N)) r d hx (fun b => ktile_point m c hk (⟨n + 1, h⟩ : Fin cfg0.N) b d) ihAd

/-- After every point the scratch holds the streaming state of the point's block row. -/
theorem rowInv (c : Dev nD) (hq : IsReal (aQ m c)) (hk : IsReal (aK m c)) : ∀ (n : ℕ) (h : n < cfg0.N), RowInv m c n h := by
  intro n
  induction n with
  | zero => intro h; exact rowInv_A m c hq hk ⟨0, h⟩ rfl (fun hh => absurd hh (by decide : ¬(0 % 8 = 7)))
  | succ n ih =>
    intro h
    by_cases h0 : (n + 1) % 8 = 0
    · exact rowInv_A m c hq hk ⟨n + 1, h⟩ h0 (by show ¬(n + 1) % 8 = 7; omega)
    · exact rowInv_step m c hq hk n h h0 (ih _)

/-- The block a last tile stores: entry (r, d) is the result's entry at the block row's row r, column d. -/
theorem out_point (c : Dev nD) (hq : IsReal (aQ m c)) (hk : IsReal (aK m c)) (t : Fin cfg0.N) (h7 : t.val % 8 = 7)
    (r : Fin 1024) (d : Fin 128) :
    (outsAt0 m c t.val t.isLt).1 (ix2 r d) = Cert.Attn.out (aQ m c) (aK m c) (aM m c) (ix2 (grow t r) d) := by
  obtain ⟨n1, h⟩ := t
  obtain ⟨n, rfl⟩ : ∃ n, n1 = n + 1 := ⟨n1 - 1, by have : n1 % 8 = 7 := h7; omega⟩
  have h0 : ¬(n + 1) % 8 = 0 := by have : (n + 1) % 8 = 7 := h7; omega
  have h1 : (n + 1) % 8 = 7 := h7
  show (outsAt0 m c (n + 1) h).1 (ix2 r d) = _
  rw [outsAt0_C m c (⟨n + 1, h⟩ : Fin cfg0.N) h0 h1]
  dsimp only
  simp only [Nat.add_sub_cancel]
  rw [out_C_3 (F := Ideal) c (grid0.coords (⟨n + 1, h⟩ : Fin cfg0.N)) (ms0_0 (⟨n + 1, h⟩ : Fin cfg0.N)) (hs0_0 (⟨n + 1, h⟩ : Fin cfg0.N)) (ms0_1 (⟨n + 1, h⟩ : Fin cfg0.N)) (hs0_1 (⟨n + 1, h⟩ : Fin cfg0.N)) (ms0_2 (⟨n + 1, h⟩ : Fin cfg0.N)) (hs0_2 (⟨n + 1, h⟩ : Fin cfg0.N)) (ms0_3 (⟨n + 1, h⟩ : Fin cfg0.N)) (hs0_3 (⟨n + 1, h⟩ : Fin cfg0.N))
      scM0_0 (Memref.isWhole_whole _) scM0_1 (Memref.isWhole_whole _) scM0_2 (Memref.isWhole_whole _)
      (fun hh => h0 ((hcond0_0 (⟨n + 1, h⟩ : Fin cfg0.N)).mp hh)) ((hcond0_1 (⟨n + 1, h⟩ : Fin cfg0.N)).mpr h1) (iblk m c 0 (⟨n + 1, h⟩ : Fin cfg0.N)) (iblk m c 1 (⟨n + 1, h⟩ : Fin cfg0.N)) (iblk m c 2 (⟨n + 1, h⟩ : Fin cfg0.N)) (outsAt0 m c n (Nat.lt_of_succ_lt h)).2.1 (outsAt0 m c n (Nat.lt_of_succ_lt h)).2.2.1 (outsAt0 m c n (Nat.lt_of_succ_lt h)).2.2.2]
  have ih := rowInv m c hq hk n (Nat.lt_of_succ_lt h)
  have hx := tLogit_point m c hq hk (⟨n + 1, h⟩ : Fin cfg0.N) r
  have hg : grow (⟨n + 1, h⟩ : Fin cfg0.N) r = grow ⟨n, Nat.lt_of_succ_lt h⟩ r :=
    Fin.ext (by show 1024 * ((n + 1) / 8) + r.val = 1024 * (n / 8) + r.val; omega)
  have hj : (tj (⟨n + 1, h⟩ : Fin cfg0.N)).val = n % 8 + 1 := by show (n + 1) % 8 = n % 8 + 1; omega
  have h8 : (tj (⟨n + 1, h⟩ : Fin cfg0.N)).val + 1 = 8 := by show (n + 1) % 8 + 1 = 8; omega
  obtain ⟨ihL, ihA⟩ := ih r
  have ihAd := ihA d
  rw [← hg, ← hj] at ihL ihAd
  have sL := stepL_row (ktile (grid0.coords (⟨n + 1, h⟩ : Fin cfg0.N)) (iblk m c 1 (⟨n + 1, h⟩ : Fin cfg0.N))) (iblk m c 0 (⟨n + 1, h⟩ : Fin cfg0.N)) (iblk m c 2 (⟨n + 1, h⟩ : Fin cfg0.N))
    (outsAt0 m c n (Nat.lt_of_succ_lt h)).2.2.1 (outsAt0 m c n (Nat.lt_of_succ_lt h)).2.2.2
    (xr m c (grow (⟨n + 1, h⟩ : Fin cfg0.N) r)) (tj (⟨n + 1, h⟩ : Fin cfg0.N)) r hx ihL
  have sA := stepA_row (ktile (grid0.coords (⟨n + 1, h⟩ : Fin cfg0.N)) (iblk m c 1 (⟨n + 1, h⟩ : Fin cfg0.N))) (iblk m c 0 (⟨n + 1, h⟩ : Fin cfg0.N)) (iblk m c 2 (⟨n + 1, h⟩ : Fin cfg0.N))
    (outsAt0 m c n (Nat.lt_of_succ_lt h)).2.1 (outsAt0 m c n (Nat.lt_of_succ_lt h)).2.2.1
    (xr m c (grow (⟨n + 1, h⟩ : Fin cfg0.N) r)) (vr m c d) (tj (⟨n + 1, h⟩ : Fin cfg0.N)) r d hx (fun b => ktile_point m c hk (⟨n + 1, h⟩ : Fin cfg0.N) b d) ihAd
  rw [h8] at sL sA
  refine (out_row _ _ (xr m c (grow (⟨n + 1, h⟩ : Fin cfg0.N) r)) (vr m c d) _ r d sL sA).trans ?_
  unfold Cert.Attn.out
  exact congrArg _ (wsum_equiv colE
    (fun k : Fin 8192 => (logit (aQ m c) (aK m c) (aM m c) (grow (⟨n + 1, h⟩ : Fin cfg0.N) r) k).toReal)
    (fun k : Fin 8192 => (aK m c (ix2 k d)).toReal))

end Cert.KernelIdeal.KV
end
-- ==== Proof.KFinal.lean ====
/-
  The output array after the run, from what the last key tile of each row block leaves.

  The output's block of row block `t / 8` is written back only at the grid points with `t % 8 = 7`, the last key tile
  of the row block.  Those eight blocks tile the output array: row `i` lies in row block `i / 1024`, written back at
  point `8 (i / 1024) + 7`.  So if at each such point the staging buffer holds the rows `1024 (t / 8) + r` of `G`,
  the array ends holding `G`.
-/
import proofs.«116552_j81827716923995_2_alg».proof.Proof.KBlocks

noncomputable section

namespace Cert.KernelIdeal.KV

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- What the last point of a row block leaves in the output's staging buffer, at any index of the block. -/
theorem blk_row (c : Dev nD) (G : S8192x128.Idx → Elt F .f32)
    (h : ∀ t : Fin cfg0.N, t.val % 8 = 7 → ∀ (r : Fin 1024) (d : Fin 128),
      (outsAt0 m c t.val t.isLt).1 (ValueIdx.ix2 r d) = G (ValueIdx.ix2 (grow t r) d))
    (t : Fin cfg0.N) (h7 : t.val % 8 = 7) (j : S1024x128.Idx) :
    (outsAt0 m c t.val t.isLt).1 j = G (ValueIdx.ix2 (grow t (j 0)) (j 1)) := by
  obtain ⟨r, d, rfl⟩ : ∃ r d, j = ValueIdx.ix2 r d := ⟨j 0, j 1, ValueIdx.eq_ix2 j⟩
  exact h t h7 r d

/-- What a writing point writes back is its block of `G`. -/
theorem flushed_eq (c : Dev nD) (G : S8192x128.Idx → Elt F .f32)
    (h : ∀ t : Fin cfg0.N, t.val % 8 = 7 → ∀ (r : Fin 1024) (d : Fin 128),
      (outsAt0 m c t.val t.isLt).1 (ValueIdx.ix2 r d) = G (ValueIdx.ix2 (grow t r) d))
    (t : Fin cfg0.N) (hf : (cfg0.win 3).flush t = true) :
    (dats m 0 c).flushed 3 t = ((cfg0.win 3).blk t).view.read (Elt F) G := by
  have h7 : t.val % 8 = 7 := (flush0_3 t).mp hf
  obtain ⟨-, -, -, -, -, -, e30, e31, -⟩ := idx_facts t
  rw [Cert.KernelIdeal.Value.flushed3]
  funext j
  show (outsAt0 m c t.val t.isLt).1 j = G (((cfg0.win 3).blk t).view.emb j)
  rw [blk_row m c G h t h7 j]
  congr 1
  funext a
  apply Fin.ext
  match a with
  | ⟨0, _⟩ => show 1024 * (t.val / 8) + (j 0).val = win0_3.index t 0 * 1024 + 1 * (j 0).val; rw [e30]; omega
  | ⟨1, _⟩ => show (j 1).val = win0_3.index t 1 * 128 + 1 * (j 1).val; rw [e31]; omega

/-- An index of the array is in point `t`'s block iff each coordinate is in the block's range on its axis. -/
theorem mem_blk3 (t : Fin cfg0.N) (i : S8192x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v0).slice (win0_3.rect t)).set ↔ _
  rw [View.set_slice_whole, Rect.mem_set_unit]
  exact Iff.rfl

theorem final_of_rows (c : Dev nD) (G : S8192x128.Idx → Elt F .f32)
    (h : ∀ t : Fin cfg0.N, t.val % 8 = 7 → ∀ (r : Fin 1024) (d : Fin 128),
      (outsAt0 m c t.val t.isLt).1 (ValueIdx.ix2 r d) = G (ValueIdx.ix2 (grow t r) d)) :
    (dats m 0 c).arrAt 3 cfg0.N = G := by
  refine (dats m 0 c).arrAt_eq_of_cover 3 G (fun t hf => flushed_eq m c G h t hf) fun i => ?_
  have hi0 : (i 0).val < 8192 := (i 0).isLt
  have hi1 : (i 1).val < 128 := (i 1).isLt
  have hN : cfg0.N = 64 := N_0
  let t : Fin cfg0.N := ⟨8 * ((i 0).val / 1024) + 7, by omega⟩
  have ht : t.val = 8 * ((i 0).val / 1024) + 7 := rfl
  obtain ⟨-, -, -, -, -, -, e30, e31, -⟩ := idx_facts t
  refine ⟨t, (flush0_3 t).mpr (by omega), ?_⟩
  rw [mem_blk3]
  intro a
  match a with
  | ⟨0, _⟩ => show win0_3.index t 0 * 1024 ≤ (i 0).val ∧ (i 0).val < win0_3.index t 0 * 1024 + 1024; rw [e30]; omega
  | ⟨1, _⟩ => show win0_3.index t 1 * 128 ≤ (i 1).val ∧ (i 1).val < win0_3.index t 1 * 128 + 128; rw [e31]; omega

end Cert.KernelIdeal.KV
end
-- ==== Proof.KRun.lean ====
/-
  The kernel's result array after the run: the masked-attention function of the three argument arrays.

  The output's blocks are written back at the last tile of each block row only, block row i covering rows
  1024·i … 1024·i + 1023, so the eight written blocks tile the array; each is the softmax-weighted average of the keys'
  columns for its rows.
-/
import proofs.«116552_j81827716923995_2_alg».proof.Proof.KInv
import proofs.«116552_j81827716923995_2_alg».proof.Proof.KFinal

noncomputable section

namespace Cert.KernelIdeal.KV

open Cert.KernelIdeal Cert.KernelIdeal.Gen Idealize.ShloMosaic Idealize.ShloMosaic.TcCoe Idealize.SL.Sem
open Idealize.ShloMosaic.ValueIdx Cert.Attn

variable (m : (ℓ : Loc nD τ sig) → Buf (Elt Ideal) ℓ) (ρ : Dev nD → PrngReg)

/-- The result array after the last point. -/
theorem final_out (c : Dev nD) (hq : IsReal (aQ m c)) (hk : IsReal (aK m c)) :
    (dats m 0 c).arrAt 3 cfg0.N = Cert.Attn.out (aQ m c) (aK m c) (aM m c) :=
  final_of_rows m c _ (fun t h7 r d => out_point m c hq hk t h7 r d)

/-- Every weakly fair execution ends with the result array at the masked-attention function of the arguments and the
    arguments unchanged, when the queries and keys are real. -/
theorem run_out (hq : ∀ c : Dev nD, IsReal (aQ m c)) (hk : ∀ c : Dev nD, IsReal (aK m c)) :
    θ_run defs (onTc (τ := τ) (main (F := Ideal))) ⟨m, fun _ => 0, ρ⟩ fun r => ∀ c : Dev nD,
      r.2.mem ((c : Thread nD τ).loc main_v0) = Cert.Attn.out (aQ m c) (aK m c) (aM m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_out m c (hq c) (hk c)), (h c).2⟩)
    (Cert.KernelIdeal.Value.run_blocks m ρ)

end Cert.KernelIdeal.KV
end
-- ==== Proof.RefRun.lean ====
/-
  The reference program's @main as the list of its thirty-one host operations, the three outlined functions'
  operations listed in place at their calls, and its run read back: every weakly fair execution terminates with the
  result buffer at the operations' composed pure term of the three arguments' launch contents, the arguments unchanged.

  The composed term (`refTerm`): the scores are the contraction of the queries with the keys over their second axes;
  the leaky relu is a select on `score >= 0` between the score and its multiple by the slope; the logits are a select on
  `mask > 0` between that and the fill; the row maximum is the reduction by `max` from negative infinity, joined with
  negative infinity once more; the weights are the exponentials of the logits less their row's maximum, divided by
  their row's sum (a reduction by addition from zero); the result is the contraction of the weights' second axis with the
  keys' first.
-/
import proofs.«116552_j81827716923995_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: the leaky relu is seven (the zero, its broadcast, the comparison,
    the slope converted to its own type, its broadcast, the product, and the inner select), the masking select three
    (the fill converted to its own type, its broadcast, the select); around them @main's own twenty-one. -/
abbrev ops : List (HloOp τ sig (Elt F)) :=
  [ binary main_arg0 main_arg1 main_v0 ((fun l r => Host.dotGeneral dot_S8192x128_S8192x128_S8192x8192_1_1_0_0_n_n none l r) : (⟨S8192x128, .f32⟩ : BufTy).Contents (Elt F) → (⟨S8192x128, .f32⟩ : BufTy).Contents (Elt F) → (⟨S8192x8192, .f32⟩ : BufTy).Contents (Elt F)),
    nullary main_cst (constant S_ .f32 0x3E4CCCCD#32),
    TRef.nullary main_call0.cst (constant S_ .f32 0x00000000#32),
    TRef.unary main_call0.cst main_call0.v0 (broadcastInDim S8192x8192 ![] bcast_S_S8192x8192),
    TRef.binary (.of main_v0) main_call0.v0 main_call0.v1 (cmpf .oge),
    TRef.unary (.of main_cst) main_call0.v2 id,
    TRef.unary main_call0.v2 main_call0.v3 (broadcastInDim S8192x8192 ![] bcast_S_S8192x8192),
    TRef.binary main_call0.v3 (.of main_v0) main_call0.v4 mulf,
    TRef.ternary main_call0.v1 (.of main_v0) main_call0.v4 main_call0.call0.v0 select,
    nullary main_c (constantI S_ 32 0#32),
    unary main_c main_v2 (broadcastInDim S8192x8192 ![] bcast_S_S8192x8192 : (⟨S_, .i32⟩ : BufTy).Contents (Elt F) → (⟨S8192x8192, .i32⟩ : BufTy).Contents (Elt F)),
    binary main_arg2 main_v2 main_v3 (cmpi .sgt : (⟨S8192x8192, .i32⟩ : BufTy).Contents (Elt F) → (⟨S8192x8192, .i32⟩ : BufTy).Contents (Elt F) → (⟨S8192x8192, .i1⟩ : BufTy).Contents (Elt F)),
    nullary main_cst_0 (constant S_ .f32 0xD9FFCB9E#32),
    TRef.unary (.of main_cst_0) main_call1.v0 id,
    TRef.unary main_call1.v0 main_call1.v1 (broadcastInDim S8192x8192 ![] bcast_S_S8192x8192),
    TRef.ternary (.of main_v3) (.of main_v1) main_call1.v1 main_call1.v2 select,
    nullary main_cst_1 (constant S_ .f32 0xFF800000#32),
    binary main_v4 main_cst_1 main_v5 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_2 (constant S_ .f32 0xFF800000#32),
    unary main_cst_2 main_v6 (broadcastInDim S8192 ![] bcast_S_S8192 : (⟨S_, .f32⟩ : BufTy).Contents (Elt F) → (⟨S8192, .f32⟩ : BufTy).Contents (Elt F)),
    binary main_v6 main_v5 main_v7 (maximumf : (⟨S8192, .f32⟩ : BufTy).Contents (Elt F) → (⟨S8192, .f32⟩ : BufTy).Contents (Elt F) → (⟨S8192, .f32⟩ : BufTy).Contents (Elt F)),
    unary main_v7 main_v8 (broadcastInDim S8192x1 ![0] bcast_S8192_S8192x1_0 : (⟨S8192, .f32⟩ : BufTy).Contents (Elt F) → (⟨S8192x1, .f32⟩ : BufTy).Contents (Elt F)),
    unary main_v8 main_v9 (broadcastInDim S8192x8192 ![0, 1] bcast_S8192x1_S8192x8192_0_1 : (⟨S8192x1, .f32⟩ : BufTy).Contents (Elt F) → (⟨S8192x8192, .f32⟩ : BufTy).Contents (Elt F)),
    binary main_v4 main_v9 main_v10 (subf : (⟨S8192x8192, .f32⟩ : BufTy).Contents (Elt F) → (⟨S8192x8192, .f32⟩ : BufTy).Contents (Elt F) → (⟨S8192x8192, .f32⟩ : BufTy).Contents (Elt F)),
    unary main_v10 main_v11 (Host.exp : (⟨S8192x8192, .f32⟩ : BufTy).Contents (Elt F) → (⟨S8192x8192, .f32⟩ : BufTy).Contents (Elt F)),
    nullary main_cst_3 (constant S_ .f32 0x00000000#32),
    binary main_v11 main_cst_3 main_v12 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v12 main_v13 (broadcastInDim S8192x1 ![0] bcast_S8192_S8192x1_0 : (⟨S8192, .f32⟩ : BufTy).Contents (Elt F) → (⟨S8192x1, .f32⟩ : BufTy).Contents (Elt F)),
    unary main_v13 main_v14 (broadcastInDim S8192x8192 ![0, 1] bcast_S8192x1_S8192x8192_0_1 : (⟨S8192x1, .f32⟩ : BufTy).Contents (Elt F) → (⟨S8192x8192, .f32⟩ : BufTy).Contents (Elt F)),
    binary main_v11 main_v14 main_v15 (Host.divf : (⟨S8192x8192, .f32⟩ : BufTy).Contents (Elt F) → (⟨S8192x8192, .f32⟩ : BufTy).Contents (Elt F) → (⟨S8192x8192, .f32⟩ : BufTy).Contents (Elt F)),
    binary main_v15 main_arg1 main_v16 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)) ]

-- thirty-one binds re-associated under the chain
set_option maxRecDepth 1024 in
/-- @main is that straight line: the functions' definitions unfolded at their calls and the records at their fields,
    both sides are one chain of steps once sequencing is reassociated. -/
theorem main_eq (c : Dev nD) : main (F := F) c = seq ops := by
  simp only [main, fn_leaky_relu.body, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., nullary_bufs_sub .., unary_bufs_sub .., binary_bufs_sub .., unary_bufs_sub ..,
    unary_bufs_sub .., binary_bufs_sub .., ternary_bufs_sub .., nullary_bufs_sub .., unary_bufs_sub .., binary_bufs_sub ..,
    nullary_bufs_sub .., unary_bufs_sub .., unary_bufs_sub .., ternary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    binary_bufs_sub ..⟩

/-! ## The composed term -/

/-- The scores: entry `(n, c)` contracts row `n` of the queries with row `c` of the keys. -/
def scores (q k : FVec F S8192x128 .f32) : FVec F S8192x8192 .f32 :=
  Host.dotGeneral dot_S8192x128_S8192x128_S8192x8192_1_1_0_0_n_n none q k

/-- The leaky relu: the score where it is at least zero, its multiple by the slope elsewhere. -/
def leakyRelu (s : FVec F S8192x8192 .f32) : FVec F S8192x8192 .f32 :=
  select (cmpf .oge s (broadcastInDim S8192x8192 ![] bcast_S_S8192x8192 (constant S_ .f32 0x00000000#32))) s
    (mulf (broadcastInDim S8192x8192 ![] bcast_S_S8192x8192 (constant S_ .f32 0x3E4CCCCD#32)) s)

/-- The logits: the leaky relu of the score where the table's entry is positive, the fill elsewhere. -/
def logits (q k : FVec F S8192x128 .f32) (msk : IVec S8192x8192 32) : FVec F S8192x8192 .f32 :=
  select (cmpi .sgt msk (broadcastInDim S8192x8192 ![] bcast_S_S8192x8192 (constantI S_ 32 0#32)))
    (leakyRelu (scores q k)) (broadcastInDim S8192x8192 ![] bcast_S_S8192x8192 (constant S_ .f32 0xD9FFCB9E#32))

/-- A row's maximum: the reduction by `max` from negative infinity over the row, joined with negative infinity. -/
def rowMax (x : FVec F S8192x8192 .f32) : FVec F S8192 .f32 :=
  maximumf (broadcastInDim S8192 ![] bcast_S_S8192 (constant S_ .f32 0xFF800000#32))
    (Host.reduce FloatOps.maximumf x (constant S_ .f32 0xFF800000#32) reducesTo_S8192x8192_S8192_d1 h_S_)

/-- A value per row, repeated along the row. -/
def rowBroadcast (v : FVec F S8192 .f32) : FVec F S8192x8192 .f32 :=
  broadcastInDim S8192x8192 ![0, 1] bcast_S8192x1_S8192x8192_0_1 (broadcastInDim S8192x1 ![0] bcast_S8192_S8192x1_0 v)

/-- The exponentials of the entries less their row's maximum. -/
def expShifted (x : FVec F S8192x8192 .f32) : FVec F S8192x8192 .f32 :=
  Host.exp (subf x (rowBroadcast (rowMax x)))

/-- A row's sum, from zero. -/
def rowSum (e : FVec F S8192x8192 .f32) : FVec F S8192 .f32 :=
  Host.reduceAdd e (constant S_ .f32 0x00000000#32) reducesTo_S8192x8192_S8192_d1 h_S_

/-- The softmax weights of each row. -/
def weights (x : FVec F S8192x8192 .f32) : FVec F S8192x8192 .f32 :=
  Host.divf (expShifted x) (rowBroadcast (rowSum (expShifted x)))

/-- The operations' composed term of the three arguments: the weights of the logits' rows contracted with the keys. -/
def refTerm (q k : FVec F S8192x128 .f32) (msk : IVec S8192x8192 32) : FVec F S8192x128 .f32 :=
  Host.dotGeneral dot_S8192x8192_S8192x128_S8192x128_1_0_0_1_n_n none (weights (logits q k msk)) k

attribute [local irreducible] Host.reduce Host.reduceAdd in
set_option maxRecDepth 8192 in
/-- The fold at the result buffer is the composed term: each operation's result at its own result buffer is its
    function's value and at any other buffer what was there, and the typed references' casts are the identity at these
    literal references. The reductions are kept folded meanwhile: the equation never looks inside them. -/
theorem out_eq (V : Valuation τ sig (Elt F)) :
    after ops V (main_v16 : DevRef τ sig)
      = refTerm (V (main_arg0 : DevRef τ sig)) (V (main_arg1 : DevRef τ sig)) (V (main_arg2 : DevRef τ sig)) := by
  after_results_simp
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

/-- On every device, for any float values, from any memory with zero counters: every weakly fair execution of
    @main terminates with the result at the operations' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16)
          = refTerm (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v16).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefRun

end
-- ==== Proof.RefAlgebra.lean ====
/-
  A row of the softmax, with any real number subtracted from the logits, weighs the values as `wsum` does.

  With `S` the sum of `exp (x c' - ν)` over the row, a positive real number, each term
  `exp (x c - ν) / S * v c` is a product of real numbers, and the sum of the terms is
  `(∑ exp (x c - ν) * v c) / S`.  Since `exp (x - ν) = exp x / exp ν`, the factor `1 / exp ν` cancels between the
  numerator and `S`, which leaves `(∑ exp (x c) * v c) / ∑ exp (x c)`.
-/
import proofs.«116552_j81827716923995_2_alg».proof.Proof.Algebra
import proofs.«116552_j81827716923995_2_alg».proof.Proof.Real

noncomputable section

namespace Cert.Attn

open Idealize.ShloMosaic

theorem softmax_row {ι : Type} [Fintype ι] [Nonempty ι] (x v : ι → ℝ) (ν : ℝ) :
    ∑ c : ι, Ideal.div (Ideal.exp (((x c : ℝ) : EReal) - (ν : EReal))) (∑ c' : ι, Ideal.exp (((x c' : ℝ) : EReal) - (ν : EReal))) * ((v c : ℝ) : EReal)
      = ((wsum x v : ℝ) : EReal) := by
  have hD : (∑ c' : ι, Ideal.exp (((x c' : ℝ) : EReal) - (ν : EReal)))
      = ((∑ c' : ι, Real.exp (x c' - ν) : ℝ) : EReal) := by
    rw [coe_finset_sum]
    refine Finset.sum_congr rfl fun c _ => ?_
    rw [← EReal.coe_sub, Ideal.exp_coe]
  have hpos : 0 < ∑ c' : ι, Real.exp (x c' - ν) :=
    Finset.sum_pos (fun c _ => Real.exp_pos _) Finset.univ_nonempty
  rw [hD]
  have hterm : ∀ c : ι,
      Ideal.div (Ideal.exp (((x c : ℝ) : EReal) - (ν : EReal))) ((∑ c' : ι, Real.exp (x c' - ν) : ℝ) : EReal) * ((v c : ℝ) : EReal)
        = ((Real.exp (x c - ν) * (1 / ∑ c' : ι, Real.exp (x c' - ν)) * v c : ℝ) : EReal) := by
    intro c
    rw [Ideal.div_coe hpos.ne', ← EReal.coe_sub, Ideal.exp_coe, ← EReal.coe_mul, ← EReal.coe_mul]
  rw [Finset.sum_congr rfl fun c _ => hterm c, ← coe_finset_sum]
  congr 1
  unfold wsum
  have hE : ∑ c' : ι, Real.exp (x c' - ν) = (∑ c', Real.exp (x c')) / Real.exp ν := by
    rw [Finset.sum_div]; exact Finset.sum_congr rfl fun c _ => Real.exp_sub _ _
  have hN : ∑ c : ι, Real.exp (x c - ν) * (1 / ∑ c' : ι, Real.exp (x c' - ν)) * v c
      = (∑ c, Real.exp (x c - ν) * v c) / ∑ c' : ι, Real.exp (x c' - ν) := by
    rw [Finset.sum_div]; refine Finset.sum_congr rfl fun c _ => ?_; ring
  have hA : ∑ c : ι, Real.exp (x c - ν) * v c = (∑ c, Real.exp (x c) * v c) / Real.exp ν := by
    rw [Finset.sum_div]; refine Finset.sum_congr rfl fun c _ => ?_; rw [Real.exp_sub, div_mul_eq_mul_div]
  rw [hN, hA, hE, div_div_div_cancel_right₀ (Real.exp_pos ν).ne']

end Cert.Attn

end
-- ==== Proof.RefValue.lean ====
/-
  The reference program's composed term, read at an index at the ideal values, is the specification's result.

  At `(n, d)` the last contraction is the sum over the keys `c` of the weight at `(n, c)` times entry `d` of key `c`. The
  weight is the exponential of the logit less its row's maximum, divided by the row's sum of such exponentials. The logit
  is the specification's: the scores are the inner products; on a real score the reference's select between the score and
  its multiple by the slope is the larger of the two, because the slope lies between zero and one; the mask's select and
  the fill are spelt alike on both sides. Under the precondition every logit is a real number, so the row's maximum, a
  fold of `max` from the bottom over 8192 real numbers, is a real number `ν` (which one does not matter); each shifted
  exponential is then `exp (x c - ν)`, the row's sum a positive real, and the weighted average of the keys' entries is the
  softmax-weighted average with nothing subtracted, since `exp (x - ν) = exp x * exp (-ν)` and the factor cancels.
-/
import proofs.«116552_j81827716923995_2_alg».proof.Proof.RefRun
import proofs.«116552_j81827716923995_2_alg».proof.Proof.Spec
import proofs.«116552_j81827716923995_2_alg».proof.Proof.Real
import proofs.«116552_j81827716923995_2_alg».proof.Proof.Algebra
import proofs.«116552_j81827716923995_2_alg».proof.Proof.RefAlgebra
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.ValueIdx Cert.Attn

/-! ## The two contractions' operand indices -/

/-- The dimension numbers of the scores' contraction: the second axes of the queries and of the keys. -/
abbrev dotQK : DotDims S8192x128 S8192x128 S8192x8192 := dot_S8192x128_S8192x128_S8192x8192_1_1_0_0_n_n
/-- The dimension numbers of the result's contraction: the weights' second axis with the keys' first. -/
abbrev dotWK : DotDims S8192x8192 S8192x128 S8192x128 := dot_S8192x8192_S8192x128_S8192x128_1_0_0_1_n_n

theorem lhsQK_0 (i : S8192x8192.Idx) (p : dotQK.contr.Idx) : (dotQK.lhsIdx i p 0).val = (i 0).val := by
  unfold DotDims.lhsIdx
  rw [dif_neg (show ¬(0 : Fin S8192x128.rank) ∈ dotQK.lhsBatch by decide),
    dif_pos (show (0 : Fin S8192x128.rank) ∈ dotQK.lhsNonContracting by decide)]
  rfl
theorem lhsQK_1 (i : S8192x8192.Idx) (p : dotQK.contr.Idx) : (dotQK.lhsIdx i p 1).val = (p ⟨0, by decide⟩).val :=
  dotQK.lhsIdx_val_of_single rfl i p
theorem rhsQK_0 (i : S8192x8192.Idx) (p : dotQK.contr.Idx) : (dotQK.rhsIdx i p 0).val = (i 1).val := by
  unfold DotDims.rhsIdx
  rw [dif_neg (show ¬(0 : Fin S8192x128.rank) ∈ dotQK.rhsBatch by decide),
    dif_pos (show (0 : Fin S8192x128.rank) ∈ dotQK.rhsNonContracting by decide)]
  rfl
theorem rhsQK_1 (i : S8192x8192.Idx) (p : dotQK.contr.Idx) : (dotQK.rhsIdx i p 1).val = (p ⟨0, by decide⟩).val :=
  dotQK.rhsIdx_val_of_single rfl i p

theorem lhsWK_0 (i : S8192x128.Idx) (p : dotWK.contr.Idx) : (dotWK.lhsIdx i p 0).val = (i 0).val := by
  unfold DotDims.lhsIdx
  rw [dif_neg (show ¬(0 : Fin S8192x8192.rank) ∈ dotWK.lhsBatch by decide),
    dif_pos (show (0 : Fin S8192x8192.rank) ∈ dotWK.lhsNonContracting by decide)]
  rfl
theorem lhsWK_1 (i : S8192x128.Idx) (p : dotWK.contr.Idx) : (dotWK.lhsIdx i p 1).val = (p ⟨0, by decide⟩).val :=
  dotWK.lhsIdx_val_of_single rfl i p
theorem rhsWK_0 (i : S8192x128.Idx) (p : dotWK.contr.Idx) : (dotWK.rhsIdx i p 0).val = (p ⟨0, by decide⟩).val :=
  dotWK.rhsIdx_val_of_single rfl i p
theorem rhsWK_1 (i : S8192x128.Idx) (p : dotWK.contr.Idx) : (dotWK.rhsIdx i p 1).val = (i 1).val := by
  unfold DotDims.rhsIdx
  rw [dif_neg (show ¬(1 : Fin S8192x128.rank) ∈ dotWK.rhsBatch by decide),
    dif_pos (show (1 : Fin S8192x128.rank) ∈ dotWK.rhsNonContracting by decide)]
  rfl

/-- The scores at `(n, c)`: the inner product of row `n` of the queries with row `c` of the keys. -/
theorem scores_apply (q k : SQ.Idx → EReal) (n c : Fin 8192) :
    RefRun.scores (F := Ideal) q k (ix2 n c) = score q k n c := by
  unfold RefRun.scores score
  simp only [Host.dotGeneral]
  rw [Ideal.dotGeneral_apply, ← Equiv.sum_comp (contrEquiv1 dotQK 128 rfl rfl).symm]
  refine Finset.sum_congr rfl fun d _ => ?_
  have hd := contrEquiv1_symm_val dotQK 128 rfl rfl d
  have el : dotQK.lhsIdx (ix2 n c) ((contrEquiv1 dotQK 128 rfl rfl).symm d) = ix2 n d := funext fun a => Fin.ext (by
    match a with
    | ⟨0, _⟩ => exact lhsQK_0 _ _
    | ⟨1, _⟩ => exact (lhsQK_1 _ _).trans hd)
  have er : dotQK.rhsIdx (ix2 n c) ((contrEquiv1 dotQK 128 rfl rfl).symm d) = ix2 c d := funext fun a => Fin.ext (by
    match a with
    | ⟨0, _⟩ => exact rhsQK_0 _ _
    | ⟨1, _⟩ => exact (rhsQK_1 _ _).trans hd)
  rw [el, er]

/-- The result at `(n, d)`: the sum over the keys `c` of the weight at `(n, c)` times entry `d` of key `c`. -/
theorem refTerm_apply (q k : SQ.Idx → EReal) (msk : SM.Idx → BitVec 32) (n : Fin 8192) (d : Fin 128) :
    RefRun.refTerm (F := Ideal) q k msk (ix2 n d)
      = ∑ c : Fin 8192, RefRun.weights (F := Ideal) (RefRun.logits (F := Ideal) q k msk) (ix2 n c) * k (ix2 c d) := by
  unfold RefRun.refTerm
  simp only [Host.dotGeneral]
  rw [Ideal.dotGeneral_apply, ← Equiv.sum_comp (contrEquiv1 dotWK 8192 rfl rfl).symm]
  refine Finset.sum_congr rfl fun c _ => ?_
  have hc := contrEquiv1_symm_val dotWK 8192 rfl rfl c
  have el : dotWK.lhsIdx (ix2 n d) ((contrEquiv1 dotWK 8192 rfl rfl).symm c) = ix2 n c := funext fun a => Fin.ext (by
    match a with
    | ⟨0, _⟩ => exact lhsWK_0 _ _
    | ⟨1, _⟩ => exact (lhsWK_1 _ _).trans hc)
  have er : dotWK.rhsIdx (ix2 n d) ((contrEquiv1 dotWK 8192 rfl rfl).symm c) = ix2 c d := funext fun a => Fin.ext (by
    match a with
    | ⟨0, _⟩ => exact (rhsWK_0 _ _).trans hc
    | ⟨1, _⟩ => exact rhsWK_1 _ _)
  rw [el, er]

/-! ## The elementwise operations, the broadcasts and the two reductions at an index -/

/-- The leaky relu at an index: a select on `score >= 0` between the score and its multiple by the slope. -/
theorem leakyRelu_apply (s : SM.Idx → EReal) (i : SM.Idx) :
    RefRun.leakyRelu (F := Ideal) s i
      = Scalar.select (Ideal.cmp .oge (s i) (Ideal.ofBits .f32 0x00000000#32)) (s i) (slope * s i) := rfl

/-- On a real number the reference's leaky relu is the larger of the number and its multiple by the slope: the slope
    lies between zero and one, so the number itself is the larger exactly when it is at least zero. -/
theorem select_eq_leaky (r : ℝ) :
    Scalar.select (Ideal.cmp .oge (r : EReal) (Ideal.ofBits .f32 0x00000000#32)) (r : EReal) (slope * (r : EReal))
      = leaky (r : EReal) := by
  rw [ofBits_zero, leaky, slope_eq, ← EReal.coe_mul, ← coe_max]
  unfold Ideal.cmp Scalar.select
  by_cases h : (0 : ℝ) ≤ r
  · have h' : (0 : EReal) ≤ (r : EReal) := EReal.coe_nonneg.mpr h
    rw [if_pos (by simp [h']), max_eq_left (by nlinarith)]
  · have h' : ¬ (0 : EReal) ≤ (r : EReal) := fun e => h (EReal.coe_nonneg.mp e)
    rw [if_neg (by simp [h']), max_eq_right (by nlinarith)]

/-- The logits at an index: a select on `mask > 0` between the leaky relu of the score and the fill. -/
theorem logits_apply (q k : SQ.Idx → EReal) (msk : SM.Idx → BitVec 32) (i : SM.Idx) :
    RefRun.logits (F := Ideal) q k msk i
      = Scalar.select (IntOp.cmpi .sgt (msk i) 0#32) (RefRun.leakyRelu (F := Ideal) (RefRun.scores (F := Ideal) q k) i) fill := rfl

/-- Under the precondition the reference's logit at `(n, c)` is the specification's. -/
theorem logits_eq (q k : SQ.Idx → EReal) (msk : SM.Idx → BitVec 32) (hq : IsReal q) (hk : IsReal k) (n c : Fin 8192) :
    RefRun.logits (F := Ideal) q k msk (ix2 n c) = logit q k msk n c := by
  rw [logits_apply, leakyRelu_apply, scores_apply]
  obtain ⟨r, hr⟩ := score_real hq hk n c
  rw [logit, hr, select_eq_leaky]

/-- So every logit of the reference is a real number. -/
theorem logits_real (q k : SQ.Idx → EReal) (msk : SM.Idx → BitVec 32) (hq : IsReal q) (hk : IsReal k) :
    IsReal (RefRun.logits (F := Ideal) q k msk) := fun i => by
  obtain ⟨n, c, rfl⟩ : ∃ n c : Fin 8192, i = ix2 n c := ⟨i 0, i 1, eq_ix2 i⟩
  rw [logits_eq q k msk hq hk]
  exact logit_real hq hk msk n c

/-- A fold, from the bottom, of an operation that is `max` over finitely many real numbers, at least one of them, is a
    real number. -/
theorem fold_real {ι : Type} (op : EReal → EReal → EReal) [Std.Commutative op] [Std.Associative op]
    (hop : ∀ a b, op a b = max a b) (s : Finset ι) (hs : s.Nonempty) (f : ι → EReal) (hf : ∀ i, ∃ r : ℝ, f i = (r : EReal)) :
    ∃ r : ℝ, s.fold op ⊥ f = (r : EReal) := by
  classical
  induction s using Finset.induction_on with
  | empty => exact absurd hs (by simp)
  | insert a s ha ih =>
    obtain ⟨t, ht⟩ := hf a
    rw [Finset.fold_insert ha, hop, ht]
    rcases s.eq_empty_or_nonempty with rfl | hne
    · exact ⟨t, by rw [Finset.fold_empty]; exact max_eq_left bot_le⟩
    · obtain ⟨r, hr⟩ := ih hne
      exact ⟨max t r, by rw [hr, coe_max]⟩

/-- The row maximum of an array of real numbers is a real number: the fold of `max` from the bottom over the 8192
    entries of the row, joined with the bottom once more. -/
theorem rowMax_real (x : SM.Idx → EReal) (hx : IsReal x) (j : S8192.Idx) :
    ∃ ν : ℝ, RefRun.rowMax (F := Ideal) x j = (ν : EReal) := by
  have hred : S8192x8192.Reduces [1] S8192 := by decide
  obtain ⟨ν, hν⟩ := fold_real (FloatOps.maximumf (F := Ideal) (φ := .f32)) (fun _ _ => rfl)
    (Finset.univ : Finset (Fin (S8192x8192.size 1))) ⟨⟨0, by decide⟩, Finset.mem_univ _⟩ (x ∘ hred.lift j)
    (fun c => hx _)
  refine ⟨ν, ?_⟩
  unfold RefRun.rowMax
  rw [maximumf_apply, Host.reduce_eq_fold_single (FloatOps.maximumf (F := Ideal) (φ := .f32)) x _
    reducesTo_S8192x8192_S8192_d1 hred h_S_ j]
  simp only [constant_apply, ofBits_neg_inf]
  rw [hν]
  exact max_eq_right bot_le

/-- A value per row repeated along the row reads the row's value. -/
theorem rowBroadcast_apply (v : S8192.Idx → EReal) (n c : Fin 8192) :
    RefRun.rowBroadcast (F := Ideal) v (ix2 n c) = v (ix1 n) := by
  unfold RefRun.rowBroadcast
  rw [broadcastInDim_apply _ _ _ (ix2 n c) (ix2 n (0 : Fin 1)) (fun a => by match a with | ⟨0, _⟩ => rfl | ⟨1, _⟩ => rfl),
    broadcastInDim_apply _ _ _ (ix2 n (0 : Fin 1)) (ix1 n) (fun a => by match a with | ⟨0, _⟩ => rfl)]

/-- The shifted exponential at `(n, c)`. -/
theorem expShifted_apply (x : SM.Idx → EReal) (n c : Fin 8192) :
    RefRun.expShifted (F := Ideal) x (ix2 n c) = Ideal.exp (x (ix2 n c) - RefRun.rowMax (F := Ideal) x (ix1 n)) := by
  show Ideal.exp (x (ix2 n c) - RefRun.rowBroadcast (F := Ideal) (RefRun.rowMax (F := Ideal) x) (ix2 n c)) = _
  rw [rowBroadcast_apply]

/-- A row's sum at row `n`: the sum over the row's 8192 entries. -/
theorem rowSum_apply (e : SM.Idx → EReal) (n : Fin 8192) :
    RefRun.rowSum (F := Ideal) e (ix1 n) = ∑ c : Fin 8192, e (ix2 n c) := by
  have hred : S8192x8192.Reduces [1] S8192 := by decide
  unfold RefRun.rowSum
  rw [hostReduceAdd_apply, Ideal.hostReduceAdd_single reducesTo_S8192x8192_S8192_d1 hred]
  show Ideal.ofBits .f32 0x00000000#32 + ∑ c : Fin 8192, e (hred.lift (ix1 n) c) = _
  rw [ofBits_zero, zero_add]
  refine Finset.sum_congr rfl fun c _ => congrArg e (funext fun a => Fin.ext ?_)
  match a with
  | ⟨0, _⟩ => rfl
  | ⟨1, _⟩ => rfl

/-- The weight at `(n, c)`: the shifted exponential there divided by its row's sum. -/
theorem weights_apply (x : SM.Idx → EReal) (n c : Fin 8192) :
    RefRun.weights (F := Ideal) x (ix2 n c)
      = Ideal.div (RefRun.expShifted (F := Ideal) x (ix2 n c)) (∑ c' : Fin 8192, RefRun.expShifted (F := Ideal) x (ix2 n c')) := by
  show Ideal.div (RefRun.expShifted (F := Ideal) x (ix2 n c))
    (RefRun.rowBroadcast (F := Ideal) (RefRun.rowSum (F := Ideal) (RefRun.expShifted (F := Ideal) x)) (ix2 n c)) = _
  rw [rowBroadcast_apply, rowSum_apply]

/-! ## The result -/

/-- Under the precondition the reference's composed term is the specification's result. At `(n, d)` it is the sum over
    the keys of the weights times the keys' entries; every logit of row `n` is a real number, so the row's maximum is a
    real number `ν`, each weight is `exp (x c - ν)` over the row's sum of them, and the weighted sum does not depend on `ν`. -/
theorem refTerm_eq (q k : SQ.Idx → EReal) (msk : SM.Idx → BitVec 32) (hq : IsReal q) (hk : IsReal k) :
    RefRun.refTerm (F := Ideal) q k msk = out q k msk := by
  funext i
  obtain ⟨n, d, rfl⟩ : ∃ (n : Fin 8192) (d : Fin 128), i = ix2 n d := ⟨i 0, i 1, eq_ix2 i⟩
  obtain ⟨ν, hν⟩ := rowMax_real _ (logits_real q k msk hq hk) (ix1 n)
  have he : ∀ c : Fin 8192, RefRun.expShifted (F := Ideal) (RefRun.logits (F := Ideal) q k msk) (ix2 n c)
      = Ideal.exp ((((logit q k msk n c).toReal : ℝ) : EReal) - (ν : EReal)) := fun c => by
    rw [expShifted_apply, hν, logits_eq q k msk hq hk, logit_coe_toReal hq hk]
  have key : ∀ c : Fin 8192,
      RefRun.weights (F := Ideal) (RefRun.logits (F := Ideal) q k msk) (ix2 n c) * k (ix2 c d)
        = Ideal.div (Ideal.exp ((((logit q k msk n c).toReal : ℝ) : EReal) - (ν : EReal)))
            (∑ c' : Fin 8192, Ideal.exp ((((logit q k msk n c').toReal : ℝ) : EReal) - (ν : EReal)))
          * (((k (ix2 c d)).toReal : ℝ) : EReal) := fun c => by
    rw [weights_apply, he c, Finset.sum_congr rfl fun c' _ => he c', coe_toReal_of_isReal hk]
  rw [refTerm_apply, Finset.sum_congr rfl fun c _ => key c]
  exact softmax_row (fun c => (logit q k msk n c).toReal) (fun c => (k (ix2 c d)).toReal) ν

/-! ## The run, read at the specification -/

open Idealize.ShloMosaic.TcCoe Idealize.SL.Sem Idealize.ShloMosaic.StableHlo in
/-- On every device, from any memory with zero counters whose queries and keys are arrays of real numbers: every weakly
    fair execution of @main terminates with the result buffer at the specification's result of the three arguments'
    launch contents, and the arguments unchanged. -/
theorem run_out (m : (ℓ : Loc nD τ sig) → Buf (Elt Ideal) ℓ) (ρ : Dev nD → PrngReg)
    (hq : ∀ c : Dev nD, IsReal (s := SQ) (m ((c.tc : Thread nD τ).loc main_arg0)))
    (hk : ∀ c : Dev nD, IsReal (s := SQ) (m ((c.tc : Thread nD τ).loc main_arg1))) :
    θ_run (defs (F := Ideal)) (onTc (τ := τ) (main (F := Ideal))) ⟨m, fun _ => 0, ρ⟩ fun r => ∀ c : Dev nD,
      r.2.mem ((c.tc : Thread nD τ).loc main_v16)
          = out (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun _ h c =>
      ⟨((h c).1).trans (refTerm_eq _ _ _ (hq c) (hk c)), (h c).2.1, (h c).2.2.1, (h c).2.2.2⟩)
    (RefRun.run m ρ)

end Cert.ReferenceIdeal.RefValue

end
-- ==== Proof.Finite.lean ====
/-
  The precondition, read back: every entry of the queries and of the keys is a real number.

  The precondition compares the absolute value of each entry with positive infinity, takes the conjunction of the
  comparisons over both axes of each array, and conjoins the two results.  If the result is true, every comparison is
  true; and an extended real whose absolute value is below positive infinity is neither infinity, so it is a real
  number.
-/
import proofs.«116552_j81827716923995_2_alg».proof.Proof.Spec
import proofs.«116552_j81827716923995_2_alg».proof.Pre_finite_inputs
import proofs.«116552_j81827716923995_2_alg».proof.Proof.Gen.Pre_finite_inputs
import Idealize.ShloMosaic.Lib.ReduceAll

noncomputable section

namespace Cert.Attn

open Idealize.ShloMosaic Idealize.ShloMosaic.ValueIdx

instance : Subsingleton Cert.Pre_finite_inputs.S_.Idx := ⟨fun a b => funext fun d => d.elim0⟩

/-- The pattern of positive infinity denotes the top of the extended reals. -/
theorem ofBits_pos_inf' : Ideal.ofBits .f32 0x7F800000#32 = (⊤ : EReal) := by
  simp [Ideal.ofBits, Ideal.ieee]

/-- An extended real whose absolute value, the larger of it and its negation, is below positive infinity is a real number. -/
theorem real_of_abs_lt (x : EReal)
    (hx : Ideal.cmp .olt (max x (-x)) (Ideal.ofBits .f32 0x7F800000#32) = 1#1) : ∃ r : ℝ, x = (r : EReal) := by
  rw [ofBits_pos_inf'] at hx
  induction x using EReal.rec with
  | bot => simp [Ideal.cmp] at hx
  | coe r => exact ⟨r, rfl⟩
  | top => simp [Ideal.cmp] at hx

theorem isReal_of_pre [Cert.Pre_finite_inputs.Facts] (a0 a1 : SQ.Idx → EReal) (a2 : SM.Idx → BitVec 32)
    (h : Cert.Pre_finite_inputs.fn (F := Ideal) a0 a1 a2 = fun _ => 1#1) : IsReal a0 ∧ IsReal a1 := by
  have h0 := congrFun h ValueIdx.ix0
  dsimp only [Cert.Pre_finite_inputs.fn] at h0
  obtain ⟨hA, hB⟩ := IntOp.andi_eq_one.1 h0
  constructor
  · intro i
    exact real_of_abs_lt (a0 i) (Host.reduce_andi_all _ _ _ _ _ hA i)
  · intro i
    exact real_of_abs_lt (a1 i) (Host.reduce_andi_all _ _ _ _ _ hB i)

end Cert.Attn

end
-- ==== Proof.lean ====
/-
  Masked attention with a leaky relu on the scores: the kernel's streaming softmax against the reference's two-pass
  softmax, at the extended reals.

  Both programs compute, for every query row, the average of the keys' rows under the softmax weights of the row's
  masked, leaky-relu'd scores.  The reference subtracts the row's maximum, exponentiates, normalises and multiplies by
  the keys.  The kernel walks the keys in eight tiles of 1024 rows, carrying a running maximum, a denominator and a
  numerator that it rescales by exp (old maximum − new maximum) at each tile, and divides once at the end.  A
  softmax-weighted average does not depend on the number subtracted before exponentiating, because the factor cancels
  between numerator and denominator; so both results equal the average with nothing subtracted (Proof/Spec.lean),
  entry by entry, once every input entry is a real number — which is what the precondition says.  The three frame
  claims are the generated frames of the two kernel programs and the reference's run with its result dropped; the
  idealization rewrote nothing.
-/
import proofs.«116552_j81827716923995_2_alg».proof.Defs
import proofs.«116552_j81827716923995_2_alg».proof.Proof.Gen.Kernel
import proofs.«116552_j81827716923995_2_alg».proof.Proof.Gen.Kernel.Frame
import proofs.«116552_j81827716923995_2_alg».proof.Proof.Gen.KernelIdeal
import proofs.«116552_j81827716923995_2_alg».proof.Proof.Gen.KernelIdeal.Frame
import proofs.«116552_j81827716923995_2_alg».proof.Proof.Gen.KernelIdeal.Value
import proofs.«116552_j81827716923995_2_alg».proof.Proof.Gen.ReferenceIdeal
import proofs.«116552_j81827716923995_2_alg».proof.Proof.Gen.Pre_finite_inputs
import proofs.«116552_j81827716923995_2_alg».proof.Proof.KRun
import proofs.«116552_j81827716923995_2_alg».proof.Proof.RefValue
import proofs.«116552_j81827716923995_2_alg».proof.Proof.Finite
import Idealize.ShloMosaic.Adequacy
import Idealize.ShloMosaic.Init

noncomputable section

namespace Cert.Proof

open Idealize.ShloMosaic Idealize.SL.Sem

theorem frame_k : Cert.frame_Kernel :=
  fun m ρ _ => Cert.Kernel.Gen.frame m ρ

theorem frame_ki : Cert.frame_KernelIdeal :=
  fun m ρ _ => Cert.KernelIdeal.Gen.frame m ρ

/-- The reference's frame: its run with the result dropped. -/
theorem frame_ri : Cert.frame_ReferenceIdeal :=
  fun m ρ _ => (θ_run Cert.ReferenceIdeal.defs _ _).mono (fun _ h c => (h c).2)
    (Cert.ReferenceIdeal.RefRun.run (F := Ideal) m ρ)

/-- Under the precondition the kernel's result array and the reference's both end at the masked-attention function
    of arguments that agree. -/
theorem algebraic : Cert.algebraic_KernelIdeal_ReferenceIdeal := by
  intro m ρ m' ρ' hpre hagree
  have hr := fun c => Cert.Attn.isReal_of_pre _ _ _ (hpre c)
  refine ⟨fun c => Cert.Attn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KV.run_out m ρ (fun c => (hr c).1) (fun c => (hr c).2), ?_⟩
  refine (θ_run Cert.ReferenceIdeal.defs _ _).mono (fun _ h c => ⟨(h c).1.trans ?_, (h c).2⟩)
    (Cert.ReferenceIdeal.RefValue.run_out m' ρ'
      (fun c => by rw [(hagree c).1]; exact (hr c).1) (fun c => by rw [(hagree c).2.1]; exact (hr c).2))
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
